-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S10000x64 : Shape := ⟨2, ![10000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 78
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S100000x64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S_, .f32⟩
  | .hbm, ⟨68, _⟩ => ⟨S1x64, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S100000x64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .i32⟩
  | .hbm, ⟨73, _⟩ => ⟨S_, .f32⟩
  | .hbm, ⟨74, _⟩ => ⟨S64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call2_cst : Ref sig .tc := ⟨.hbm, 111, rfl⟩
abbrev main_call2_v0 : Ref sig .tc := ⟨.hbm, 112, rfl⟩
abbrev main_v67 : Ref sig .tc := ⟨.hbm, 113, rfl⟩

abbrev nD : Nat := 1
abbrev τ : Topo := Topo.v7x

variable {F : FTy → Type} [FloatOps F]

class Facts₀ : Prop where
  transposes_S64x64_S64x64_1_0 : S64x64.Transposes [1, 0] S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run with its RESULT named: every weakly fair execution of @main terminates, nothing
  faulting, the argument arrays end as launched, and the result array (the last pallas_call's output) ends at what
  the fold through @main's eight segments leaves there — the contents `W8` of the generated frame module: host operations
  applied in order, each pallas_call's arrays replaced by its folded write-backs. The last thread state holds every
  unscoped buffer at those contents; the result array is read out of it beside the six arguments.
-/
import proofs.«144540_j49074296324300_1_alg».proof.Proof.Gen.KernelIdeal.Frame

set_option maxRecDepth 16384

noncomputable section

namespace Cert.Bn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the fold's contents and the arguments unchanged. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Bn.KernelRun

end
-- ==== Proof.Spec.lean ====
/-
  The mathematics of this certificate, as four functions on the extended reals over the program's own shapes.

  A graph-convolution layer followed by batch normalisation over the 100000 nodes, per channel c (64 channels):
    h        = x · Wt                          (`linear`:   h[n,o] = Σ_k x[n,k] · Wt[k,o])
    r        = the normalised neighbourhood sum of h's rows (the same host operations in both programs; not opened here)
    S[c]     = Σ_n (r[n,c] + b[c])             (`colSum`)
    Q[c]     = Σ_n (r[n,c] + b[c])²            (`colSumSq`)
    y[n,c]   = max(((r[n,c] + b[c]) − mean[c]) · rsqrt(var[c] + ε) · γ[c] + β[c], 0)   (`normalize`)
  Rows of length 64 are carried as 1×64 matrices, read at (0, c).
-/
import proofs.«144540_j49074296324300_1_alg».proof.KernelIdeal
import Idealize.ShloMosaic.Lib.ValueIdx
import Idealize.ShloMosaic.PureOps.Ideal.Laws

noncomputable section

namespace Cert.Bn

open Idealize.ShloMosaic Idealize.ShloMosaic.ValueIdx Cert.KernelIdeal

/-- The product of the 100000×64 matrix `x` with the 64×64 matrix `wt`, entry by entry. -/
def linear (x : S100000x64.Idx → EReal) (wt : S64x64.Idx → EReal) : S100000x64.Idx → EReal :=
  fun i => ∑ k : Fin 64, x (ix2 (n0 := 100000) (n1 := 64) (i 0) k) * wt (ix2 (n0 := 64) (n1 := 64) k (i 1))

/-- Column sums of `r + b` (the row `b` added to every row of `r`), kept as a 1×64 row. -/
def colSum (r : S100000x64.Idx → EReal) (b : S1x64.Idx → EReal) : S1x64.Idx → EReal :=
  fun j => ∑ n : Fin 100000, (r (ix2 (n0 := 100000) (n1 := 64) n (j 1)) + b (ix2 (n0 := 1) (n1 := 64) 0 (j 1)))

/-- Column sums of the squares of `r + b`, kept as a 1×64 row. -/
def colSumSq (r : S100000x64.Idx → EReal) (b : S1x64.Idx → EReal) : S1x64.Idx → EReal :=
  fun j => ∑ n : Fin 100000, (r (ix2 (n0 := 100000) (n1 := 64) n (j 1)) + b (ix2 (n0 := 1) (n1 := 64) 0 (j 1)))
    * (r (ix2 (n0 := 100000) (n1 := 64) n (j 1)) + b (ix2 (n0 := 1) (n1 := 64) 0 (j 1)))

/-- Normalise, scale, shift and clamp below at zero, entry by entry; ε is the single-precision word 0x3727C5AC
    and the clamp the zero word, both left as words (the two programs use the same ones). -/
def normalize (r : S100000x64.Idx → EReal) (b mean var gamma beta : S1x64.Idx → EReal) : S100000x64.Idx → EReal :=
  fun i => max
    ((((r i + b (ix2 (n0 := 1) (n1 := 64) 0 (i 1))) - mean (ix2 (n0 := 1) (n1 := 64) 0 (i 1)))
        * Ideal.rsqrt (var (ix2 (n0 := 1) (n1 := 64) 0 (i 1)) + Ideal.ofBits .f32 0x3727C5AC#32))
      * gamma (ix2 (n0 := 1) (n1 := 64) 0 (i 1)) + beta (ix2 (n0 := 1) (n1 := 64) 0 (i 1)))
    (Ideal.ofBits .f32 0x00000000#32)

end Cert.Bn

end
-- ==== Proof.Agg.lean ====
/-
  The neighbourhood aggregation both programs apply to the transformed features h (100000 nodes × 64 channels),
  as one function of h and the 2 × 1600000 edge table, written as the host operations themselves:

    src, dst   the edge endpoints, each followed by 0 … 99999 (a self-loop per node): 1700000 entries
    deg[n]     the number of edges whose destination is n (a scatter-add of ones)
    dis[n]     deg[n]^(-1/2) where deg[n] > 0, and 0 elsewhere
    wrap       a negative index has 100000 added (Python-style indexing), before each gather
    w[e]       dis[src e] · dis[dst e]
    out[n,:]   the sum over the edges e with destination n of h[src e,:] · w[e] (a scatter-add onto zeros)

  Nothing here is evaluated: the two programs apply the same operations, and the certificate only needs
  (i) that it is the same function on both sides and (ii) that it keeps every entry a real number.
-/
import proofs.«144540_j49074296324300_1_alg».proof.KernelIdeal
import Idealize.ShloMosaic.PureOps.Ideal

noncomputable section

namespace Cert.Bn

open Idealize.ShloMosaic Cert.KernelIdeal

-- the program's stated side conditions (shape facts of its broadcasts, slices, gathers and scatters)
variable [Facts₀]
open Facts₀

/-- An i32 vector over the 1700000 edges (with self-loops). -/
abbrev EdgeIdx := IVec S1700000 32
/-- A float per node. -/
abbrev NodeVec := FVec Ideal S100000 .f32
/-- The feature matrix: a float per node and channel. -/
abbrev Feat := FVec Ideal S100000x64 .f32
/-- The edge table: row 0 the sources, row 1 the destinations. -/
abbrev EdgeTable := IVec S2x1600000 32

/-- Row `r` of the edge table (r = 0, 1 written as the slice's start) followed by the node numbers 0 … 99999. -/
def srcIdx (ei : EdgeTable) : EdgeIdx :=
  concatenate S1700000 0
    [⟨S1600000, fun i => shapeCast S1600000 (extractStridedSlice S1x1600000 ![0, 0] ei slices_S2x1600000_S1x1600000_0_0) shapeCasts_S1x1600000_S1600000 i⟩,
     ⟨S100000, iotaInDim S100000 32 0⟩] concatenates_S1600000_S100000_S1700000_d0

def dstIdx (ei : EdgeTable) : EdgeIdx :=
  concatenate S1700000 0
    [⟨S1600000, fun i => shapeCast S1600000 (extractStridedSlice S1x1600000 ![1, 0] ei slices_S2x1600000_S1x1600000_1_0) shapeCasts_S1x1600000_S1600000 i⟩,
     ⟨S100000, iotaInDim S100000 32 0⟩] concatenates_S1600000_S100000_S1700000_d0

/-- The in-degree of every node: ones scattered onto zeros at the destinations. -/
def degree (dst : EdgeIdx) : NodeVec :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- deg^(-1/2) where the degree is positive, zero elsewhere. -/
def invSqrtDeg (dst : EdgeIdx) : NodeVec :=
  select (cmpf (F := Ideal) .ogt (degree dst) (broadcastInDim S100000 ![] bcast_S_S100000 (constant (F := Ideal) S_ .f32 0x00000000#32)))
    (Host.rsqrt (F := Ideal) (degree dst))
    (broadcastInDim S100000 ![] bcast_S_S100000 (id (constant (F := Ideal) S_ .f32 0x00000000#32)))

/-- A negative index has 100000 added. -/
def wrapIdx (idx : EdgeIdx) : EdgeIdx :=
  select (cmpi .slt idx (broadcastInDim S1700000 ![] bcast_S_S1700000 (constantI S_ 32 0#32)))
    (addi idx (broadcastInDim S1700000 ![] bcast_S_S1700000 (constantI S_ 32 100000#32))) idx

/-- The weight of every edge: the product of the two endpoints' inverse square-root degrees. -/
def edgeNorm (src dst : EdgeIdx) : FVec Ideal S1700000 .f32 :=
  mulf (F := Ideal)
    (Host.gather gather_S100000_S1700000x1_S1700000_n_0_n_n_0_1_1 (invSqrtDeg dst)
      (broadcastInDim S1700000x1 ![0] bcast_S1700000_S1700000x1_0 (wrapIdx src)))
    (Host.gather gather_S100000_S1700000x1_S1700000_n_0_n_n_0_1_1 (invSqrtDeg dst)
      (broadcastInDim S1700000x1 ![0] bcast_S1700000_S1700000x1_0 (wrapIdx dst)))

/-- The weighted neighbourhood sum of the rows of `h`. -/
def aggregateAt (h : Feat) (src dst : EdgeIdx) : Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal)
      (Host.gather gather_S100000x64_S1700000x1_S1700000x64_1_0_n_n_0_1_164 h
        (broadcastInDim S1700000x1 ![0] bcast_S1700000_S1700000x1_0 (wrapIdx src)))
      (broadcastInDim S1700000x64 ![0, 1] bcast_S1700000x1_S1700000x64_0_1
        (broadcastInDim S1700000x1 ![0] bcast_S1700000_S1700000x1_0 (edgeNorm src dst))))

/-- The aggregation as a function of the features and the edge table. -/
def aggregate (h : Feat) (ei : EdgeTable) : Feat := aggregateAt h (srcIdx ei) (dstIdx ei)

end Cert.Bn

end
-- ==== Proof.Glue.lean ====
/-
  The host operations between the first and the second pallas_call, read back: the array the second call stages
  as its window 0 is the neighbourhood aggregation (`Cert.Bn.aggregate`) of the first call's output and the edge
  table, and its window 1 is the bias vector laid out as a 1 × 64 row. The fifty-seven operations come in three
  stretches (the edge endpoints and the in-degree; the guarded reciprocal square root, an outlined select; the
  gathers, the edge weights and the scatter-add); each stretch is read over an arbitrary valuation of the
  buffers, then the three are chained.
-/
import proofs.«144540_j49074296324300_1_alg».proof.Proof.Gen.KernelIdeal.Frame
import proofs.«144540_j49074296324300_1_alg».proof.Proof.Agg
import Idealize.ShloMosaic.Lib.StableHlo.Run

set_option maxRecDepth 16384

noncomputable section

namespace Cert.Bn.Glue

open Cert.KernelIdeal Cert.KernelIdeal.Facts₀
open Idealize.ShloMosaic Idealize.ShloMosaic.TcCoe Idealize.ShloMosaic.StableHlo Idealize.SL.Sem

/-- The weighted neighbourhood sum with the inverse square-root degrees `dis` given. -/
def aggregateOf (h : Feat) (dis : NodeVec) (src dst : EdgeIdx) : Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal)
      (Host.gather gather_S100000x64_S1700000x1_S1700000x64_1_0_n_n_0_1_164 h
        (broadcastInDim S1700000x1 ![0] bcast_S1700000_S1700000x1_0 (wrapIdx src)))
      (broadcastInDim S1700000x64 ![0, 1] bcast_S1700000x1_S1700000x64_0_1
        (broadcastInDim S1700000x1 ![0] bcast_S1700000_S1700000x1_0
          (mulf (F := Ideal)
            (Host.gather gather_S100000_S1700000x1_S1700000_n_0_n_n_0_1_1 dis
              (broadcastInDim S1700000x1 ![0] bcast_S1700000_S1700000x1_0 (wrapIdx src)))
            (Host.gather gather_S100000_S1700000x1_S1700000_n_0_n_n_0_1_1 dis
              (broadcastInDim S1700000x1 ![0] bcast_S1700000_S1700000x1_0 (wrapIdx dst)))))))

theorem aggregate_eq (h : Feat) (ei : EdgeTable) :
    Cert.Bn.aggregate h ei = aggregateOf h (invSqrtDeg (dstIdx ei)) (srcIdx ei) (dstIdx ei) := rfl

section Stretches
variable (V : Valuation τ sig (Elt Ideal))

/-! ### First stretch: the endpoints, the in-degree, its comparison with zero and its reciprocal square root -/

theorem s1_v5 : after Gen.hostOps1 V (Proc.devRef .tc main_v5) = srcIdx (V (Proc.devRef .tc main_arg1)) := by
  dsimp only [Gen.hostOps1]; after_results_simp; rfl
theorem s1_v8 : after Gen.hostOps1 V (Proc.devRef .tc main_v8) = dstIdx (V (Proc.devRef .tc main_arg1)) := by
  dsimp only [Gen.hostOps1]; after_results_simp; rfl
theorem s1_v14 : after Gen.hostOps1 V (Proc.devRef .tc main_v14)
    = cmpf (F := Ideal) .ogt (degree (dstIdx (V (Proc.devRef .tc main_arg1))))
        (broadcastInDim S100000 ![] bcast_S_S100000 (constant (F := Ideal) S_ .f32 0x00000000#32)) := by
  dsimp only [Gen.hostOps1]; after_results_simp; rfl
theorem s1_v15 : after Gen.hostOps1 V (Proc.devRef .tc main_v15)
    = Host.rsqrt (F := Ideal) (degree (dstIdx (V (Proc.devRef .tc main_arg1)))) := by
  dsimp only [Gen.hostOps1]; after_results_simp; rfl
theorem s1_cst2 : after Gen.hostOps1 V (Proc.devRef .tc main_cst_2) = constant (F := Ideal) S_ .f32 0x00000000#32 := by
  dsimp only [Gen.hostOps1]; after_results_simp
theorem s1_v1 : after Gen.hostOps1 V (Proc.devRef .tc main_v1) = V (Proc.devRef .tc main_v1) := by
  dsimp only [Gen.hostOps1]; after_results_simp
theorem s1_arg3 : after Gen.hostOps1 V (Proc.devRef .tc main_arg3) = V (Proc.devRef .tc main_arg3) := by
  dsimp only [Gen.hostOps1]; after_results_simp

/-! ### Second stretch: the outlined select -/

theorem s2_v16 : after Gen.hostOps1_1 V (Proc.devRef .tc main_v16)
    = select (V (Proc.devRef .tc main_v14)) (V (Proc.devRef .tc main_v15))
        (broadcastInDim S100000 ![] bcast_S_S100000 (id (V (Proc.devRef .tc main_cst_2)))) := by
  dsimp only [Gen.hostOps1_1]; after_results_simp; rfl
theorem s2_v5 : after Gen.hostOps1_1 V (Proc.devRef .tc main_v5) = V (Proc.devRef .tc main_v5) := by
  dsimp only [Gen.hostOps1_1]; after_results_simp
theorem s2_v8 : after Gen.hostOps1_1 V (Proc.devRef .tc main_v8) = V (Proc.devRef .tc main_v8) := by
  dsimp only [Gen.hostOps1_1]; after_results_simp
theorem s2_v1 : after Gen.hostOps1_1 V (Proc.devRef .tc main_v1) = V (Proc.devRef .tc main_v1) := by
  dsimp only [Gen.hostOps1_1]; after_results_simp
theorem s2_arg3 : after Gen.hostOps1_1 V (Proc.devRef .tc main_arg3) = V (Proc.devRef .tc main_arg3) := by
  dsimp only [Gen.hostOps1_1]; after_results_simp

/-! ### Third stretch: the gathers, the weights, the scatter-add; and the bias row -/

theorem s3_v44 : after Gen.hostOps1_2 V (Proc.devRef .tc main_v44)
    = aggregateOf (V (Proc.devRef .tc main_v1)) (V (Proc.devRef .tc main_v16)) (V (Proc.devRef .tc main_v5))
        (V (Proc.devRef .tc main_v8)) := by
  dsimp only [Gen.hostOps1_2]; after_results_simp; rfl
theorem s3_v45 : after Gen.hostOps1_2 V (Proc.devRef .tc main_v45)
    = fun i => shapeCast S1x64 (V (Proc.devRef .tc main_arg3)) shapeCasts_S64_S1x64 i := by
  dsimp only [Gen.hostOps1_2]; after_results_simp; rfl

/-! ### Buffers a stretch does not write -/

theorem s1_arg4 : after Gen.hostOps1 V (Proc.devRef .tc main_arg4) = V (Proc.devRef .tc main_arg4) := by
  dsimp only [Gen.hostOps1]; after_results_simp
theorem s2_arg4 : after Gen.hostOps1_1 V (Proc.devRef .tc main_arg4) = V (Proc.devRef .tc main_arg4) := by
  dsimp only [Gen.hostOps1_1]; after_results_simp
theorem s3_arg4 : after Gen.hostOps1_2 V (Proc.devRef .tc main_arg4) = V (Proc.devRef .tc main_arg4) := by
  dsimp only [Gen.hostOps1_2]; after_results_simp
theorem s1_arg5 : after Gen.hostOps1 V (Proc.devRef .tc main_arg5) = V (Proc.devRef .tc main_arg5) := by
  dsimp only [Gen.hostOps1]; after_results_simp
theorem s2_arg5 : after Gen.hostOps1_1 V (Proc.devRef .tc main_arg5) = V (Proc.devRef .tc main_arg5) := by
  dsimp only [Gen.hostOps1_1]; after_results_simp
theorem s3_arg5 : after Gen.hostOps1_2 V (Proc.devRef .tc main_arg5) = V (Proc.devRef .tc main_arg5) := by
  dsimp only [Gen.hostOps1_2]; after_results_simp

/-! ### Before the first pallas_call: the weight matrix transposed -/

theorem s0_v0 : after Gen.hostOps0 V (Proc.devRef .tc main_v0)
    = transpose S64x64 [1, 0] (V (Proc.devRef .tc main_arg2)) transposes_S64x64_S64x64_1_0 := by
  dsimp only [Gen.hostOps0]; after_results_simp
theorem s0_arg0 : after Gen.hostOps0 V (Proc.devRef .tc main_arg0) = V (Proc.devRef .tc main_arg0) := by
  dsimp only [Gen.hostOps0]; after_results_simp
theorem s0_arg1 : after Gen.hostOps0 V (Proc.devRef .tc main_arg1) = V (Proc.devRef .tc main_arg1) := by
  dsimp only [Gen.hostOps0]; after_results_simp
theorem s0_arg3 : after Gen.hostOps0 V (Proc.devRef .tc main_arg3) = V (Proc.devRef .tc main_arg3) := by
  dsimp only [Gen.hostOps0]; after_results_simp
theorem s0_arg4 : after Gen.hostOps0 V (Proc.devRef .tc main_arg4) = V (Proc.devRef .tc main_arg4) := by
  dsimp only [Gen.hostOps0]; after_results_simp
theorem s0_arg5 : after Gen.hostOps0 V (Proc.devRef .tc main_arg5) = V (Proc.devRef .tc main_arg5) := by
  dsimp only [Gen.hostOps0]; after_results_simp

/-! ### Before the third pallas_call: the two sums divided by the number of nodes, the variance as the mean
    square minus the squared mean, and the scale and shift vectors laid out as rows -/

/-- The number of nodes broadcast over a 1 × 64 row. -/
abbrev nodesRow : FVec Ideal S1x64 .f32 :=
  broadcastInDim S1x64 ![] bcast_S_S1x64 (constant (F := Ideal) S_ .f32 0x47C35000#32)

theorem t_v48 : after Gen.hostOps2 V (Proc.devRef .tc main_v48)
    = Host.divf (F := Ideal) (V (Proc.devRef .tc main_v46_0)) nodesRow := by
  dsimp only [Gen.hostOps2]; after_results_simp
theorem t_v52 : after Gen.hostOps2 V (Proc.devRef .tc main_v52)
    = subf (F := Ideal) (Host.divf (F := Ideal) (V (Proc.devRef .tc main_v46_1)) nodesRow)
        (mulf (F := Ideal) (Host.divf (F := Ideal) (V (Proc.devRef .tc main_v46_0)) nodesRow)
          (Host.divf (F := Ideal) (V (Proc.devRef .tc main_v46_0)) nodesRow)) := by
  dsimp only [Gen.hostOps2]; after_results_simp
theorem t_v53 : after Gen.hostOps2 V (Proc.devRef .tc main_v53)
    = fun i => shapeCast S1x64 (V (Proc.devRef .tc main_arg4)) shapeCasts_S64_S1x64 i := by
  dsimp only [Gen.hostOps2]; after_results_simp; rfl
theorem t_v54 : after Gen.hostOps2 V (Proc.devRef .tc main_v54)
    = fun i => shapeCast S1x64 (V (Proc.devRef .tc main_arg5)) shapeCasts_S64_S1x64 i := by
  dsimp only [Gen.hostOps2]; after_results_simp; rfl
theorem t_v44 : after Gen.hostOps2 V (Proc.devRef .tc main_v44) = V (Proc.devRef .tc main_v44) := by
  dsimp only [Gen.hostOps2]; after_results_simp
theorem t_v45 : after Gen.hostOps2 V (Proc.devRef .tc main_v45) = V (Proc.devRef .tc main_v45) := by
  dsimp only [Gen.hostOps2]; after_results_simp

end Stretches

end Cert.Bn.Glue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Region0.lean ====
/-
  Region 0: the row blocks of the product x · Wt assemble to the whole product.

  The grid has 10 points. At point t the body sees rows 10000·t … 10000·t + 9999 of x (all 64 columns) and the
  whole 64×64 matrix Wt, and stores into the same rows of the output the product of the two blocks: the
  entry (p, q) of the block is Σ_k x[10000·t + p, k] · Wt[k, q] (the two changes of number format are the identity on
  the extended reals, and the accumulator starts at zero). The ten row blocks cover the 100000 rows, so the output
  array ends as the product, entry by entry.
-/
import proofs.«144540_j49074296324300_1_alg».proof.Proof.Gen.KernelIdeal.Frame
import proofs.«144540_j49074296324300_1_alg».proof.Proof.Spec
import proofs.«144540_j49074296324300_1_alg».proof.Proof.LibMatmulIdx
import Idealize.ShloMosaic.Lib.Pipeline.Value

noncomputable section

namespace Cert.Bn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offset of a whole-buffer access. -/
theorem offset_zero0 : (![0, 0] : Fin 2 → Nat) = fun _ => 0 := funext fun a => by fin_cases a <;> rfl

/-- The body's product at an entry: Σ_k x[p,k] · w[k,q]. -/
theorem product_block_apply (x : Vec Ideal S10000x64 .f32) (w : Vec Ideal S64x64 .f32) (p : Fin 10000) (q : Fin 64) :
    k0_pay1 x w (ix2 p q) = ∑ k : Fin 64, x (ix2 (n0 := 10000) (n1 := 64) p k) * w (ix2 (n0 := 64) (n1 := 64) k q) := by
  unfold k0_pay1
  refine (LibMatmulIdx.matmul2_apply (M := 10000) (K := 64) (N := 64) dot_S10000x64_S64x64_S10000x64_1_0_0_1_n_n rfl rfl
    (fun j k => rfl) (fun j k => DotDims.lhsIdx_val_of_single _ rfl j k)
    (fun j k => DotDims.rhsIdx_val_of_single _ rfl j k) (fun j k => rfl) none _ _ (ix2 p q)).trans ?_
  refine Finset.sum_congr rfl fun k _ => ?_
  rw [truncf_apply, truncf_apply, shapeCast_self]

/-- Where the three windows' blocks sit at point t: the two big windows at row block t, the weights at their one block. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t, at (p, k), is x at row 10000·t + p, column k. -/
theorem x_block_apply (c : Dev nD) (t : Fin cfg0.N) (p : Fin 10000) (k : Fin 64) (i : S100000x64.Idx)
    (h0 : (i 0).val = 10000 * t.val + p.val) (h1 : (i 1).val = k.val) :
    (iblk0 V c 0 t : Vec Ideal S10000x64 .f32) (ix2 p k) = (V c (Pipeline.arrRef spec0 0) : S100000x64.Idx → EReal) i := by
  obtain ⟨e0, e1, -⟩ := block_indices0 t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * p.val = (i 0).val; rw [e0, h0]; omega
  | ⟨1, _⟩ => show win0_0.index t 1 * 64 + 1 * k.val = (i 1).val; rw [e1, h1]; omega

/-- The block of Wt at any point is Wt. -/
theorem w_block_apply (c : Dev nD) (t : Fin cfg0.N) (k : Fin 64) (q : Fin 64) :
    (iblk0 V c 1 t : Vec Ideal S64x64 .f32) (ix2 k q) = (V c (Pipeline.arrRef spec0 1) : S64x64.Idx → EReal) (ix2 k q) := by
  obtain ⟨-, -, e2, e3, -⟩ := block_indices0 t
  unfold iblk0
  rw [View.read_apply]
  show V c (Pipeline.arrRef spec0 1) _ = V c (Pipeline.arrRef spec0 1) _
  congr 1
  funext a
  apply Fin.ext
  match a with
  | ⟨0, _⟩ => show win0_1.index t 0 * 64 + 1 * k.val = k.val; rw [e2]; omega
  | ⟨1, _⟩ => show win0_1.index t 1 * 64 + 1 * q.val = q.val; rw [e3]; omega

/-- What point t writes back is block t of the product of the two arrays as the region finds them. -/
theorem region0_flushed (c : Dev nD) (t : Fin cfg0.N) :
    (dat0 V c).flushed 2 t = ((cfg0.win 2).blk t).view.read (Elt Ideal)
      (Cert.Bn.linear (V c (Pipeline.arrRef spec0 0)) (V c (Pipeline.arrRef spec0 1))) := by
  show (cfg0.win 2).cut (grid0.coords t) ((dat0 V c).after 2 t) = _
  rw [after0_2]
  unfold out0_2
  rw [View.canon_unit_zero offset_zero0]
  simp only [View.ld_unit_zero (S := S10000x64) offset_zero0, View.ld_unit_zero (S := S64x64) offset_zero0]
  obtain ⟨-, -, -, -, e4, e5⟩ := block_indices0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Bn.linear (V c (Pipeline.arrRef spec0 0)) (V c (Pipeline.arrRef spec0 1)) (((cfg0.win 2).blk t).view.emb (ix2 p q))
  refine (product_block_apply (iblk0 V c 0 t) (iblk0 V c 1 t) p q).trans ?_
  unfold Cert.Bn.linear
  refine Finset.sum_congr rfl fun k _ => ?_
  have hq : (((cfg0.win 2).blk t).view.emb (ix2 p q) (1 : Fin 2) : Fin 64) = q := Fin.ext (by
    show win0_2.index t 1 * 64 + 1 * q.val = q.val
    rw [e5]; omega)
  rw [x_block_apply V c t p k (ix2 (n0 := 100000) (n1 := 64) (((cfg0.win 2).blk t).view.emb (ix2 p q) 0) k)
      (by show win0_2.index t 0 * 10000 + 1 * p.val = 10000 * t.val + p.val; rw [e4]; omega) rfl,
    w_block_apply V c t k q, hq]

/-- Every row of the output lies in the block of the point "row / 10000". -/
theorem region0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := block_indices0 t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e4]; show (i 0).val / 10000 * 10000 ≤ (i 0).val ∧ (i 0).val < (i 0).val / 10000 * 10000 + 10000; omega
  | ⟨1, _⟩ =>
    show win0_2.index t (1 : Fin 2) * 64 ≤ (i 1).val ∧ (i 1).val < win0_2.index t (1 : Fin 2) * 64 + 64
    rw [e5]; omega

/-- The output array of region 0 after its last point: the product of the two arrays the region found. -/
theorem region0_final (c : Dev nD) :
    (dat0 V c).arrAt 2 cfg0.N = Cert.Bn.linear (V c (Pipeline.arrRef spec0 0)) (V c (Pipeline.arrRef spec0 1)) :=
  (dat0 V c).arrAt_eq_of_cover 2 _ (fun t _ => region0_flushed V c t) region0_cover

end Cert.Bn

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.Region1.lean ====
/-
  The batch statistics, read off the grid of 10 points.

  The region walks the 100000×64 matrix X in 10 blocks of 10000 rows. At the first point it puts zero in two 1×64
  rows S and Q; at every point it forms the tile T = (block of X) + b, the 1×64 row b repeated down the 10000 rows,
  and adds to S the column sums of T and to Q the column sums of T·T. Both rows stay in place from one point to the
  next, so after point n

      S[q] = Σ_{k ≤ n} Σ_{r < 10000} (X[10000·k + r, q] + b[q]) ,

  and the same with squares for Q. After the 10 points the double sum is the sum over all n < 100000: a finite sum
  over consecutive naturals may be taken block by block, since addition on the extended reals is commutative and
  associative (no finiteness is needed). The rows are written back once, after the last point, and the block written
  is the whole 1×64 array.
-/
import proofs.«144540_j49074296324300_1_alg».proof.Proof.Gen.KernelIdeal.Frame
import proofs.«144540_j49074296324300_1_alg».proof.Proof.Spec
import proofs.«144540_j49074296324300_1_alg».proof.Proof.LibTileSums
import proofs.«144540_j49074296324300_1_alg».proof.Proof.LibRowOps
import Idealize.ShloMosaic.Lib.Pipeline.Value
import Idealize.ShloMosaic.Lib.Tactic

noncomputable section

namespace Cert.Bn

open Cert.KernelIdeal Cert.KernelIdeal.Gen Idealize.ShloMosaic Idealize.ShloMosaic.TcCoe Idealize.SL.Sem
open Idealize.ShloMosaic.ValueIdx
open Idealize.ShloMosaic.Pipeline (Dat)

namespace Region1

/-! ### What each case of the body leaves in the two rows, as payloads of the blocks (any arithmetic) -/

section Pieces
variable {F : FTy → Type} [FloatOps F]

theorem hz2 : (![0, 0] : Fin 2 → Nat) = fun _ => 0 := funext fun a => by fin_cases a <;> rfl

/-- Away from the first point the body leaves in the sum row the old row plus the column sums of the tile. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 : Vec F S1x64 .f32) (xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz2]
  simp only [View.readAt_eq_ld, h1.read_unread, h2.read_unread, h3.read_unread, View.ld_unit_zero (S := S10000x64) hz2,
    View.ld_unit_zero (S := S1x64) hz2]

/-- Away from the first point the body leaves in the square-sum row the old row plus the column sums of the
    squared tile. -/
theorem out_B_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 : Vec F S1x64 .f32) (xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz2]
  simp only [View.readAt_eq_ld, h1.read_unread, h2.read_unread, h4.read_unread, View.ld_unit_zero (S := S10000x64) hz2,
    View.ld_unit_zero (S := S1x64) hz2]

/-- At the first point the body stores the zero row, reads it back, and leaves it plus the column sums of the tile. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2,
    View.ld_unit_zero (S := S1x64) hz2]

/-- At the first point, likewise, the square-sum row: the zero row plus the column sums of the squared tile. -/
theorem out_A_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2,
    View.ld_unit_zero (S := S1x64) hz2]

end Pieces

/-! ### The payloads read at an index, at exact arithmetic -/

/-- The tile: the block plus the row, the row repeated down the 10000 rows. -/
theorem pay3_apply (v3 : Vec Ideal S10000x64 .f32) (v5 : Vec Ideal S1x64 .f32) (r : Fin 10000) (q : Fin 64) :
    k1_pay3 (F := Ideal) v3 v5 (ix2 (n0 := 10000) (n1 := 64) r q)
      = v3 (ix2 (n0 := 10000) (n1 := 64) r q) + v5 (ix2 (n0 := 1) (n1 := 64) 0 q) := by
  unfold k1_pay3
  refine (addf_apply _ _ _).trans ?_
  refine congrArg₂ (· + ·) (congrFun (shapeCast_self v3 _) _) ?_
  refine (LibRowOps.broadcastTo_row_apply _ _ r q).trans ?_
  exact congrFun (shapeCast_self v5 _) _

/-- Column q of the reduced vector with row r put back on the reduced axis is the place (r, q). -/
theorem lift_eq (r : Fin 10000) (q : Fin 64) :
    reduces_S10000x64_S64.lift (ix1 (n := 64) q) r = ix2 (n0 := 10000) (n1 := 64) r q := by
  funext a
  match a with
  | ⟨0, _⟩ => rfl
  | ⟨1, _⟩ => rfl

/-- The new sum row at column q: the old one plus the sum of column q of the tile. -/
theorem pay4_apply (v3 : Vec Ideal S10000x64 .f32) (v5 v9 : Vec Ideal S1x64 .f32) (q : Fin 64) :
    k1_pay4 (F := Ideal) v3 v5 v9 (ix2 (n0 := 1) (n1 := 64) 0 q)
      = v9 (ix2 (n0 := 1) (n1 := 64) 0 q)
        + ∑ r : Fin 10000, (v3 (ix2 (n0 := 10000) (n1 := 64) r q) + v5 (ix2 (n0 := 1) (n1 := 64) 0 q)) := by
  unfold k1_pay4
  refine (addf_apply _ _ _).trans ?_
  refine congrArg₂ (· + ·) (congrFun (shapeCast_self v9 _) _) ?_
  refine (LibRowOps.shapeCast_row_apply _ _ 0 q).trans ?_
  refine (Ideal.multiReduction_add_single (k1_pay3 (F := Ideal) v3 v5) 0x00000000#32 reduces_S10000x64_S64 _ _
    (ix1 (n := 64) q)).trans ?_
  exact Finset.sum_congr rfl fun r _ =>
    (congrArg (k1_pay3 (F := Ideal) v3 v5) (lift_eq r q)).trans (pay3_apply v3 v5 r q)

/-- The new square-sum row at column q: the old one plus the sum of the squares of column q of the tile. -/
theorem pay5_apply (v3 : Vec Ideal S10000x64 .f32) (v5 v15 : Vec Ideal S1x64 .f32) (q : Fin 64) :
    k1_pay5 (F := Ideal) v3 v5 v15 (ix2 (n0 := 1) (n1 := 64) 0 q)
      = v15 (ix2 (n0 := 1) (n1 := 64) 0 q)
        + ∑ r : Fin 10000, (v3 (ix2 (n0 := 10000) (n1 := 64) r q) + v5 (ix2 (n0 := 1) (n1 := 64) 0 q))
            * (v3 (ix2 (n0 := 10000) (n1 := 64) r q) + v5 (ix2 (n0 := 1) (n1 := 64) 0 q)) := by
  unfold k1_pay5
  refine (addf_apply _ _ _).trans ?_
  refine congrArg₂ (· + ·) (congrFun (shapeCast_self v15 _) _) ?_
  refine (LibRowOps.shapeCast_row_apply _ _ 0 q).trans ?_
  refine (Ideal.multiReduction_add_single (mulf (k1_pay3 (F := Ideal) v3 v5) (k1_pay3 (F := Ideal) v3 v5))
    0x00000000#32 reduces_S10000x64_S64 _ _ (ix1 (n := 64) q)).trans ?_
  refine Finset.sum_congr rfl fun r _ => ?_
  refine (congrArg (mulf (k1_pay3 (F := Ideal) v3 v5) (k1_pay3 (F := Ideal) v3 v5)) (lift_eq r q)).trans ?_
  refine (mulf_apply _ _ _).trans ?_
  exact congrArg₂ (· * ·) (pay3_apply v3 v5 r q) (pay3_apply v3 v5 r q)

/-- The row stored at the first point reads zero everywhere. -/
theorem pay1_apply (j : S1x64.Idx) : k1_pay1 (F := Ideal) j = 0 := by
  unfold k1_pay1
  exact Ideal.ofBits_zero_f32

theorem pay2_apply (j : S1x64.Idx) : k1_pay2 (F := Ideal) j = 0 := by
  unfold k1_pay2
  exact Ideal.ofBits_zero_f32

/-! ### The blocks of the two inputs, read at an index -/

section Values
variable (V : (c : Dev nD) → (b : Ref sig .tc) → Buf (Elt Ideal) ((c : Thread nD τ).loc b))

/-- The block of the matrix at point t is block (t, 0). -/
theorem index_0 (t : Fin cfg1.N) : win1_0.index t 0 = t.val ∧ win1_0.index t 1 = 0 := by
  rcases fin_N1 t with rfl | rfl | rfl | rfl | rfl | rfl | rfl | rfl | rfl | rfl <;> decide

/-- The block of the row vector is block (0, 0) at every point. -/
theorem index_1 (t : Fin cfg1.N) : win1_1.index t 0 = 0 ∧ win1_1.index t 1 = 0 := by
  rcases fin_N1 t with rfl | rfl | rfl | rfl | rfl | rfl | rfl | rfl | rfl | rfl <;> decide

/-- Row r of the block at point t is row 10000·t + r of the matrix. -/
theorem iblk_0_apply (c : Dev nD) (t : Fin cfg1.N) (r : Fin 10000) (q : Fin 64) (h : 10000 * t.val + r.val < 100000) :
    (iblk1 V c 0 t : Vec Ideal S10000x64 .f32) (ix2 (n0 := 10000) (n1 := 64) r q)
      = (V c (Pipeline.arrRef spec1 0) : S100000x64.Idx → EReal)
          (ix2 (n0 := 100000) (n1 := 64) ⟨10000 * t.val + r.val, h⟩ q) := by
  unfold iblk1
  rw [View.read_apply]
  show (V c (Pipeline.arrRef spec1 0) : S100000x64.Idx → EReal) _ = _
  congr 1
  funext a
  apply Fin.ext
  match a with
  | ⟨0, _⟩ => show win1_0.index t 0 * 10000 + 1 * r.val = 10000 * t.val + r.val; rw [(index_0 t).1]; omega
  | ⟨1, _⟩ => show win1_0.index t 1 * 64 + 1 * q.val = q.val; rw [(index_0 t).2]; omega

/-- The block of the row vector is the row vector, at every point. -/
theorem iblk_1_apply (c : Dev nD) (t : Fin cfg1.N) (q : Fin 64) :
    (iblk1 V c 1 t : Vec Ideal S1x64 .f32) (ix2 (n0 := 1) (n1 := 64) 0 q)
      = (V c (Pipeline.arrRef spec1 1) : S1x64.Idx → EReal) (ix2 (n0 := 1) (n1 := 64) 0 q) := by
  unfold iblk1
  rw [View.read_apply]
  show (V c (Pipeline.arrRef spec1 1) : S1x64.Idx → EReal) _ = _
  congr 1
  funext a
  apply Fin.ext
  match a with
  | ⟨0, _⟩ => show win1_1.index t 0 * 1 + 1 * 0 = 0; rw [(index_1 t).1]
  | ⟨1, _⟩ => show win1_1.index t 1 * 64 + 1 * q.val = q.val; rw [(index_1 t).2]; omega

/-! ### The running sums, point by point -/

/-- The term of the column sum at the natural number i: row i of the matrix plus the row vector, at column q
    (zero past the last row). -/
def rowTerm (X : S100000x64.Idx → EReal) (B : S1x64.Idx → EReal) (q : Fin 64) (i : ℕ) : EReal :=
  if h : i < 100000 then X (ix2 (n0 := 100000) (n1 := 64) ⟨i, h⟩ q) + B (ix2 (n0 := 1) (n1 := 64) 0 q) else 0

/-- The column sum of the tile at point t is the sum of the terms of block t. -/
theorem block_sum (c : Dev nD) (t : Fin cfg1.N) (q : Fin 64) (v3 : Vec Ideal S10000x64 .f32) (v5 : Vec Ideal S1x64 .f32)
    (h3 : v3 = iblk1 V c 0 t) (h5 : v5 = iblk1 V c 1 t) :
    ∑ r : Fin 10000, (v3 (ix2 (n0 := 10000) (n1 := 64) r q) + v5 (ix2 (n0 := 1) (n1 := 64) 0 q))
      = ∑ r : Fin 10000,
          rowTerm (V c (Pipeline.arrRef spec1 0)) (V c (Pipeline.arrRef spec1 1)) q (10000 * t.val + r.val) := by
  subst h3 h5
  refine Finset.sum_congr rfl fun r _ => ?_
  have hN : t.val < 10 := lt_of_lt_of_eq t.isLt (show cfg1.N = 10 from N_1)
  have h : 10000 * t.val + r.val < 100000 := by have := r.isLt; omega
  rw [iblk_0_apply V c t r q h, iblk_1_apply V c t q]
  unfold rowTerm
  rw [dif_pos h]

/-- The column sum of the squared tile at point t is the sum of the squared terms of block t. -/
theorem block_sumsq (c : Dev nD) (t : Fin cfg1.N) (q : Fin 64) (v3 : Vec Ideal S10000x64 .f32)
    (v5 : Vec Ideal S1x64 .f32) (h3 : v3 = iblk1 V c 0 t) (h5 : v5 = iblk1 V c 1 t) :
    ∑ r : Fin 10000, (v3 (ix2 (n0 := 10000) (n1 := 64) r q) + v5 (ix2 (n0 := 1) (n1 := 64) 0 q))
        * (v3 (ix2 (n0 := 10000) (n1 := 64) r q) + v5 (ix2 (n0 := 1) (n1 := 64) 0 q))
      = ∑ r : Fin 10000,
          rowTerm (V c (Pipeline.arrRef spec1 0)) (V c (Pipeline.arrRef spec1 1)) q (10000 * t.val + r.val)
            * rowTerm (V c (Pipeline.arrRef spec1 0)) (V c (Pipeline.arrRef spec1 1)) q (10000 * t.val + r.val) := by
  subst h3 h5
  refine Finset.sum_congr rfl fun r _ => ?_
  have hN : t.val < 10 := lt_of_lt_of_eq t.isLt (show cfg1.N = 10 from N_1)
  have h : 10000 * t.val + r.val < 100000 := by have := r.isLt; omega
  rw [iblk_0_apply V c t r q h, iblk_1_apply V c t q]
  unfold rowTerm
  rw [dif_pos h]

/-- After point n the sum row holds the terms of the blocks 0 … n. -/
theorem outsAt_sum (c : Dev nD) (q : Fin 64) : ∀ (n : ℕ) (h : n < cfg1.N),
    ((outsAt1 V c n h).1 : Vec Ideal S1x64 .f32) (ix2 (n0 := 1) (n1 := 64) 0 q)
      = ∑ k ∈ Finset.range (n + 1), ∑ r : Fin 10000,
          rowTerm (V c (Pipeline.arrRef spec1 0)) (V c (Pipeline.arrRef spec1 1)) q (10000 * k + r.val)
  | 0, h => by
    rw [outsAt1_A V c ⟨0, h⟩ rfl]
    dsimp only
    rw [out_A_2, pay4_apply, pay1_apply, zero_add, Finset.sum_range_one]
    exact block_sum V c ⟨0, h⟩ q _ _ rfl rfl
  | n + 1, h => by
    have hN : cfg1.N = 10 := N_1
    have hB : ¬(⟨n + 1, h⟩ : Fin cfg1.N).val % 10 = 0 := by dsimp only; omega
    rw [outsAt1_B V c ⟨n + 1, h⟩ hB]
    dsimp only
    rw [out_B_2, pay4_apply, Finset.sum_range_succ]
    exact congrArg₂ (· + ·) (outsAt_sum c q n _) (block_sum V c ⟨n + 1, h⟩ q _ _ rfl rfl)

/-- After point n the square-sum row holds the squared terms of the blocks 0 … n. -/
theorem outsAt_sumsq (c : Dev nD) (q : Fin 64) : ∀ (n : ℕ) (h : n < cfg1.N),
    ((outsAt1 V c n h).2 : Vec Ideal S1x64 .f32) (ix2 (n0 := 1) (n1 := 64) 0 q)
      = ∑ k ∈ Finset.range (n + 1), ∑ r : Fin 10000,
          rowTerm (V c (Pipeline.arrRef spec1 0)) (V c (Pipeline.arrRef spec1 1)) q (10000 * k + r.val)
            * rowTerm (V c (Pipeline.arrRef spec1 0)) (V c (Pipeline.arrRef spec1 1)) q (10000 * k + r.val)
  | 0, h => by
    rw [outsAt1_A V c ⟨0, h⟩ rfl]
    dsimp only
    rw [out_A_3, pay5_apply, pay2_apply, zero_add, Finset.sum_range_one]
    exact block_sumsq V c ⟨0, h⟩ q _ _ rfl rfl
  | n + 1, h => by
    have hN : cfg1.N = 10 := N_1
    have hB : ¬(⟨n + 1, h⟩ : Fin cfg1.N).val % 10 = 0 := by dsimp only; omega
    rw [outsAt1_B V c ⟨n + 1, h⟩ hB]
    dsimp only
    rw [out_B_3, pay5_apply, Finset.sum_range_succ]
    exact congrArg₂ (· + ·) (outsAt_sumsq c q n _) (block_sumsq V c ⟨n + 1, h⟩ q _ _ rfl rfl)

/-! ### After the last point: the sums over all the rows -/

/-- After the last point the sum row holds the column sums over all the 100000 rows. -/
theorem outsAt_last_sum (c : Dev nD) (n : ℕ) (h : n < cfg1.N) (hn : n = 9) :
    ((outsAt1 V c n h).1 : S1x64.Idx → EReal)
      = Cert.Bn.colSum (V c (Pipeline.arrRef spec1 0)) (V c (Pipeline.arrRef spec1 1)) := by
  subst hn
  funext j
  obtain ⟨z, q, rfl⟩ : ∃ (z : Fin 1) (q : Fin 64), j = ix2 z q := ⟨j 0, j 1, eq_ix2 j⟩
  obtain rfl : z = 0 := Subsingleton.elim _ _
  rw [outsAt_sum V c q 9 h]
  unfold Cert.Bn.colSum
  rw [← LibTileSums.sum_tiles 10 10000 100000 rfl
    (rowTerm (V c (Pipeline.arrRef spec1 0)) (V c (Pipeline.arrRef spec1 1)) q)]
  refine Finset.sum_congr rfl fun n _ => ?_
  unfold rowTerm
  rw [dif_pos n.isLt]

/-- After the last point the square-sum row holds the column sums of the squares over all the 100000 rows. -/
theorem outsAt_last_sumsq (c : Dev nD) (n : ℕ) (h : n < cfg1.N) (hn : n = 9) :
    ((outsAt1 V c n h).2 : S1x64.Idx → EReal)
      = Cert.Bn.colSumSq (V c (Pipeline.arrRef spec1 0)) (V c (Pipeline.arrRef spec1 1)) := by
  subst hn
  funext j
  obtain ⟨z, q, rfl⟩ : ∃ (z : Fin 1) (q : Fin 64), j = ix2 z q := ⟨j 0, j 1, eq_ix2 j⟩
  obtain rfl : z = 0 := Subsingleton.elim _ _
  rw [outsAt_sumsq V c q 9 h]
  unfold Cert.Bn.colSumSq
  rw [← LibTileSums.sum_tiles 10 10000 100000 rfl
    (fun i => rowTerm (V c (Pipeline.arrRef spec1 0)) (V c (Pipeline.arrRef spec1 1)) q i
      * rowTerm (V c (Pipeline.arrRef spec1 0)) (V c (Pipeline.arrRef spec1 1)) q i)]
  refine Finset.sum_congr rfl fun n _ => ?_
  unfold rowTerm
  rw [dif_pos n.isLt]

/-- The one write-back of the sum row, at the last point, writes the column sums: the block is the whole 1×64 array. -/
theorem flushed_2 (c : Dev nD) (t : Fin cfg1.N) (hf : (cfg1.win 2).flush t = true) :
    (dat1 V c).flushed 2 t = ((cfg1.win 2).blk t).view.read (Elt Ideal)
      (Cert.Bn.colSum (V c (Pipeline.arrRef spec1 0)) (V c (Pipeline.arrRef spec1 1))) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, outsAt_last_sum V c _ _ h9]
  have hz' : (fun a => win1_2.index t1_9 a * main_v46_0.ty.shape.size a) = fun _ => 0 :=
    funext fun a => by fin_cases a <;> decide
  exact (Memref.read_access_unit_zero (Elt Ideal) main_v46_0 hz' (fun a => by rw [congrFun hz' a]; simp)
    (Cert.Bn.colSum (V c (Pipeline.arrRef spec1 0)) (V c (Pipeline.arrRef spec1 1)))).symm

/-- The one write-back of the square-sum row, likewise. -/
theorem flushed_3 (c : Dev nD) (t : Fin cfg1.N) (hf : (cfg1.win 3).flush t = true) :
    (dat1 V c).flushed 3 t = ((cfg1.win 3).blk t).view.read (Elt Ideal)
      (Cert.Bn.colSumSq (V c (Pipeline.arrRef spec1 0)) (V c (Pipeline.arrRef spec1 1))) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, outsAt_last_sumsq V c _ _ h9]
  have hz' : (fun a => win1_3.index t1_9 a * main_v46_1.ty.shape.size a) = fun _ => 0 :=
    funext fun a => by fin_cases a <;> decide
  exact (Memref.read_access_unit_zero (Elt Ideal) main_v46_1 hz' (fun a => by rw [congrFun hz' a]; simp)
    (Cert.Bn.colSumSq (V c (Pipeline.arrRef spec1 0)) (V c (Pipeline.arrRef spec1 1)))).symm

end Values

/-- Every index of the 1×64 sum array lies in the block the last point writes back. -/
theorem cover_2 (i : S1x64.Idx) :
    ∃ t : Fin cfg1.N, (cfg1.win 2).flush t = true ∧ i ∈ ((cfg1.win 2).blk t).view.set :=
  ⟨t1_9, (flush1_2 t1_9).mpr rfl, by
    show i ∈ ((View.whole main_v46_0).slice (win1_2.rect t1_9)).set
    rw [View.set_slice_whole, Rect.mem_set_unit]
    intro a
    have h0 : (i 0 : Nat) < 1 := (i 0).isLt
    have h1 : (i 1 : Nat) < 64 := (i 1).isLt
    match a with
    | ⟨0, _⟩ =>
      show win1_2.index t1_9 0 * win1_2.size 0 ≤ (i 0 : Nat)
        ∧ (i 0 : Nat) < win1_2.index t1_9 0 * win1_2.size 0 + win1_2.xsize (grid1.coords t1_9) 0
      rw [show win1_2.index t1_9 0 * win1_2.size 0 = 0 from by decide +kernel,
        show win1_2.xsize (grid1.coords t1_9) 0 = 1 from by decide +kernel]; omega
    | ⟨1, _⟩ =>
      show win1_2.index t1_9 1 * win1_2.size 1 ≤ (i 1 : Nat)
        ∧ (i 1 : Nat) < win1_2.index t1_9 1 * win1_2.size 1 + win1_2.xsize (grid1.coords t1_9) 1
      rw [show win1_2.index t1_9 1 * win1_2.size 1 = 0 from by decide +kernel,
        show win1_2.xsize (grid1.coords t1_9) 1 = 64 from by decide +kernel]; omega⟩

/-- Every index of the 1×64 square-sum array lies in the block the last point writes back. -/
theorem cover_3 (i : S1x64.Idx) :
    ∃ t : Fin cfg1.N, (cfg1.win 3).flush t = true ∧ i ∈ ((cfg1.win 3).blk t).view.set :=
  ⟨t1_9, (flush1_3 t1_9).mpr rfl, by
    show i ∈ ((View.whole main_v46_1).slice (win1_3.rect t1_9)).set
    rw [View.set_slice_whole, Rect.mem_set_unit]
    intro a
    have h0 : (i 0 : Nat) < 1 := (i 0).isLt
    have h1 : (i 1 : Nat) < 64 := (i 1).isLt
    match a with
    | ⟨0, _⟩ =>
      show win1_3.index t1_9 0 * win1_3.size 0 ≤ (i 0 : Nat)
        ∧ (i 0 : Nat) < win1_3.index t1_9 0 * win1_3.size 0 + win1_3.xsize (grid1.coords t1_9) 0
      rw [show win1_3.index t1_9 0 * win1_3.size 0 = 0 from by decide +kernel,
        show win1_3.xsize (grid1.coords t1_9) 0 = 1 from by decide +kernel]; omega
    | ⟨1, _⟩ =>
      show win1_3.index t1_9 1 * win1_3.size 1 ≤ (i 1 : Nat)
        ∧ (i 1 : Nat) < win1_3.index t1_9 1 * win1_3.size 1 + win1_3.xsize (grid1.coords t1_9) 1
      rw [show win1_3.index t1_9 1 * win1_3.size 1 = 0 from by decide +kernel,
        show win1_3.xsize (grid1.coords t1_9) 1 = 64 from by decide +kernel]; omega⟩

end Region1

/-! ### The two arrays the region leaves -/

section Finals
variable (V : (c : Dev nD) → (b : Ref sig .tc) → Buf (Elt Ideal) ((c : Thread nD τ).loc b))

/-- The sum array the region leaves: the column sums of the matrix plus the row vector, over all 100000 rows. -/
theorem region1_sum (c : Dev nD) :
    (dat1 V c).arrAt 2 cfg1.N = Cert.Bn.colSum (V c (Pipeline.arrRef spec1 0)) (V c (Pipeline.arrRef spec1 1)) :=
  (dat1 V c).arrAt_eq_of_cover 2 (Cert.Bn.colSum (V c (Pipeline.arrRef spec1 0)) (V c (Pipeline.arrRef spec1 1)))
    (Region1.flushed_2 V c) Region1.cover_2

/-- The square-sum array the region leaves: the column sums of the squares of the same entries. -/
theorem region1_sumsq (c : Dev nD) :
    (dat1 V c).arrAt 3 cfg1.N = Cert.Bn.colSumSq (V c (Pipeline.arrRef spec1 0)) (V c (Pipeline.arrRef spec1 1)) :=
  (dat1 V c).arrAt_eq_of_cover 3 (Cert.Bn.colSumSq (V c (Pipeline.arrRef spec1 0)) (V c (Pipeline.arrRef spec1 1)))
    (Region1.flushed_3 V c) Region1.cover_3

end Finals

end Cert.Bn

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.Region2.lean ====
/-
  Region 2: the row blocks of the normalised, scaled, shifted and clamped array assemble to the whole array.

  The grid has 10 points. At point t the body sees rows 10000·t … 10000·t + 9999 of r (all 64 columns) and the five
  1×64 rows b, mean, var, γ, β whole, and stores into the same rows of the output, at (p, q),
    max(((r[10000·t + p, q] + b[q]) − mean[q]) · rsqrt(var[q] + ε) · γ[q] + β[q], 0):
  every operation of the body is entry by entry, and a row broadcast down the 10000 rows reads, at (p, q), the row's
  entry q. The ten row blocks cover the 100000 rows, so the output array ends as that function of the six arrays,
  entry by entry. ε and the clamp are kept as the words the program prints.
-/
import proofs.«144540_j49074296324300_1_alg».proof.Proof.Gen.KernelIdeal.Frame
import proofs.«144540_j49074296324300_1_alg».proof.Proof.Spec
import proofs.«144540_j49074296324300_1_alg».proof.Proof.LibRowLayouts
import proofs.«144540_j49074296324300_1_alg».proof.Proof.LibIndexEq
import Idealize.ShloMosaic.Lib.Pipeline.Value

noncomputable section

namespace Cert.Bn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offset of a whole-buffer access. -/
theorem offset_zero2 : (![0, 0] : Fin 2 → Nat) = fun _ => 0 := funext fun a => by fin_cases a <;> rfl

/-- The body's value at an entry (p, q) of its blocks. -/
theorem normalize_block_apply (r : Vec Ideal S10000x64 .f32) (b var mean gamma beta : Vec Ideal S1x64 .f32)
    (p : Fin 10000) (q : Fin 64) :
    k2_pay1 r b var mean gamma beta (ix2 p q) = max
      ((((r (ix2 p q) + b (ix2 (n0 := 1) (n1 := 64) 0 q)) - mean (ix2 (n0 := 1) (n1 := 64) 0 q))
          * Ideal.rsqrt (var (ix2 (n0 := 1) (n1 := 64) 0 q) + Ideal.ofBits .f32 0x3727C5AC#32))
        * gamma (ix2 (n0 := 1) (n1 := 64) 0 q) + beta (ix2 (n0 := 1) (n1 := 64) 0 q))
      (Ideal.ofBits .f32 0x00000000#32) := by
  unfold k2_pay1
  simp only [shapeCast_self]
  rw [maximumf_apply, addf_apply, mulf_apply, mulf_apply, subf_apply, addf_apply,
    LibRowLayouts.broadcastTo_row_apply (a := 10000) (b := 64), LibRowLayouts.broadcastTo_row_apply (a := 10000) (b := 64),
    LibRowLayouts.broadcastTo_row_apply (a := 10000) (b := 64), LibRowLayouts.broadcastTo_row_apply (a := 10000) (b := 64),
    LibRowLayouts.broadcastTo_row_apply (a := 10000) (b := 64)]
  rfl

/-- Where the two big windows' blocks sit at point t: at row block t. -/
theorem block_indices2 : ∀ t : Fin cfg2.N, win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)

/-- The five row windows have one block, at every point. -/
theorem row_block_indices2 : ∀ t : Fin cfg2.N,
    (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- The block of r at point t, at (p, q), is r at row 10000·t + p, column q. -/
theorem r_block_apply (c : Dev nD) (t : Fin cfg2.N) (p : Fin 10000) (q : Fin 64) (i : S100000x64.Idx)
    (h0 : (i 0).val = 10000 * t.val + p.val) (h1 : (i 1).val = q.val) :
    (iblk2 V c 0 t : Vec Ideal S10000x64 .f32) (ix2 p q) = (V c (Pipeline.arrRef spec2 0) : S100000x64.Idx → EReal) i := by
  obtain ⟨e0, e1, -⟩ := block_indices2 t
  unfold iblk2
  rw [View.read_apply]
  show V c (Pipeline.arrRef spec2 0) _ = V c (Pipeline.arrRef spec2 0) _
  congr 1
  funext a
  apply Fin.ext
  match a with
  | ⟨0, _⟩ => show win2_0.index t 0 * 10000 + 1 * p.val = (i 0).val; rw [e0, h0]; omega
  | ⟨1, _⟩ => show win2_0.index t 1 * 64 + 1 * q.val = (i 1).val; rw [e1, h1]; omega

/-- The block of the bias row at any point is the row itself. -/
theorem bias_block_apply (c : Dev nD) (t : Fin cfg2.N) (q : Fin 64) :
    (iblk2 V c 1 t : Vec Ideal S1x64 .f32) (ix2 (n0 := 1) (n1 := 64) 0 q)
      = (V c (Pipeline.arrRef spec2 1) : S1x64.Idx → EReal) (ix2 (n0 := 1) (n1 := 64) 0 q) := by
  have e := (row_block_indices2 t).1
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * 0 = 0; rw [e.1]
  | ⟨1, _⟩ => show win2_1.index t 1 * 64 + 1 * q.val = q.val; rw [e.2]; omega

/-- The block of the mean row at any point is the row itself. -/
theorem mean_block_apply (c : Dev nD) (t : Fin cfg2.N) (q : Fin 64) :
    (iblk2 V c 2 t : Vec Ideal S1x64 .f32) (ix2 (n0 := 1) (n1 := 64) 0 q)
      = (V c (Pipeline.arrRef spec2 2) : S1x64.Idx → EReal) (ix2 (n0 := 1) (n1 := 64) 0 q) := by
  have e := (row_block_indices2 t).2.1
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * 0 = 0; rw [e.1]
  | ⟨1, _⟩ => show win2_2.index t 1 * 64 + 1 * q.val = q.val; rw [e.2]; omega

/-- The block of the variance row at any point is the row itself. -/
theorem variance_block_apply (c : Dev nD) (t : Fin cfg2.N) (q : Fin 64) :
    (iblk2 V c 3 t : Vec Ideal S1x64 .f32) (ix2 (n0 := 1) (n1 := 64) 0 q)
      = (V c (Pipeline.arrRef spec2 3) : S1x64.Idx → EReal) (ix2 (n0 := 1) (n1 := 64) 0 q) := by
  have e := (row_block_indices2 t).2.2.1
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * 0 = 0; rw [e.1]
  | ⟨1, _⟩ => show win2_3.index t 1 * 64 + 1 * q.val = q.val; rw [e.2]; omega

/-- The block of the scale row at any point is the row itself. -/
theorem scale_block_apply (c : Dev nD) (t : Fin cfg2.N) (q : Fin 64) :
    (iblk2 V c 4 t : Vec Ideal S1x64 .f32) (ix2 (n0 := 1) (n1 := 64) 0 q)
      = (V c (Pipeline.arrRef spec2 4) : S1x64.Idx → EReal) (ix2 (n0 := 1) (n1 := 64) 0 q) := by
  have e := (row_block_indices2 t).2.2.2.1
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * 0 = 0; rw [e.1]
  | ⟨1, _⟩ => show win2_4.index t 1 * 64 + 1 * q.val = q.val; rw [e.2]; omega

/-- The block of the shift row at any point is the row itself. -/
theorem shift_block_apply (c : Dev nD) (t : Fin cfg2.N) (q : Fin 64) :
    (iblk2 V c 5 t : Vec Ideal S1x64 .f32) (ix2 (n0 := 1) (n1 := 64) 0 q)
      = (V c (Pipeline.arrRef spec2 5) : S1x64.Idx → EReal) (ix2 (n0 := 1) (n1 := 64) 0 q) := by
  have e := (row_block_indices2 t).2.2.2.2
  unfold iblk2
  rw [View.read_apply]
  show V c (Pipeline.arrRef spec2 5) _ = V c (Pipeline.arrRef spec2 5) _
  congr 1
  funext a
  apply Fin.ext
  match a with
  | ⟨0, _⟩ => show win2_5.index t 0 * 1 + 1 * 0 = 0; rw [e.1]
  | ⟨1, _⟩ => show win2_5.index t 1 * 64 + 1 * q.val = q.val; rw [e.2]; omega

/-- The body's value at (p, q) at point t is the normalised array at row 10000·t + p, column q. -/
theorem region2_point_entry (c : Dev nD) (t : Fin cfg2.N) (p : Fin 10000) (q : Fin 64) (a : Fin 100000)
    (ha : a.val = 10000 * t.val + p.val) :
    k2_pay1 (iblk2 V c 0 t) (iblk2 V c 1 t) (iblk2 V c 3 t) (iblk2 V c 2 t) (iblk2 V c 4 t) (iblk2 V c 5 t) (ix2 p q)
    = Cert.Bn.normalize (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (ix2 (n0 := 100000) (n1 := 64) a q) := by
  refine (normalize_block_apply (iblk2 V c 0 t) (iblk2 V c 1 t) (iblk2 V c 3 t) (iblk2 V c 2 t) (iblk2 V c 4 t) (iblk2 V c 5 t) p q).trans ?_
  rw [r_block_apply V c t p q (ix2 (n0 := 100000) (n1 := 64) a q) ha rfl,
    bias_block_apply V c t q, mean_block_apply V c t q, variance_block_apply V c t q, scale_block_apply V c t q,
    shift_block_apply V c t q]
  rfl

/-- What point t writes back is block t of the normalised array of the six arrays as the region finds them. -/
theorem region2_flushed (c : Dev nD) (t : Fin cfg2.N) :
    (dat2 V c).flushed 6 t = ((cfg2.win 6).blk t).view.read (Elt Ideal)
      (Cert.Bn.normalize (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero offset_zero2]
  simp only [View.ld_unit_zero (S := S10000x64) offset_zero2, View.ld_unit_zero (S := S1x64) offset_zero2]
  obtain ⟨-, -, e2, e3⟩ := block_indices2 t
  have hN : cfg2.N = 10 := N_2
  funext j
  obtain ⟨p, q, rfl⟩ : ∃ (p : Fin 10000) (q : Fin 64), j = ix2 p q := ⟨j 0, j 1, eq_ix2 j⟩
  have ht : t.val < 10 := hN ▸ t.isLt
  have hp : p.val < 10000 := p.isLt
  have h0 : (((cfg2.win 6).blk t).view.emb (ix2 p q) (0 : Fin 2)).val = 10000 * t.val + p.val := by
    show win2_6.index t 0 * 10000 + 1 * p.val = 10000 * t.val + p.val
    rw [e2]; omega
  have h1 : (((cfg2.win 6).blk t).view.emb (ix2 p q) (1 : Fin 2)).val = q.val := by
    show win2_6.index t 1 * 64 + 1 * q.val = q.val
    rw [e3]; omega
  exact (region2_point_entry V c t p q ⟨10000 * t.val + p.val, by omega⟩ rfl).trans
    (congrArg (Cert.Bn.normalize (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)))
      (LibIndexEq.idx2_eq (((cfg2.win 6).blk t).view.emb (ix2 p q)) ⟨10000 * t.val + p.val, by omega⟩ q h0 h1).symm)

/-- Every row of the output lies in the block of the point "row / 10000". -/
theorem region2_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, e2, e3⟩ := block_indices2 t
  refine ⟨t, flush2_6 t, ?_⟩
  show i ∈ ((View.whole main_v55).slice (win2_6.rect t)).set
  rw [View.set_slice_whole, Rect.mem_set_unit]
  intro a
  match a with
  | ⟨0, _⟩ =>
    show win2_6.index t (0 : Fin 2) * 10000 ≤ (i 0).val ∧ (i 0).val < win2_6.index t (0 : Fin 2) * 10000 + 10000
    rw [e2]; show (i 0).val / 10000 * 10000 ≤ (i 0).val ∧ (i 0).val < (i 0).val / 10000 * 10000 + 10000; omega
  | ⟨1, _⟩ =>
    show win2_6.index t (1 : Fin 2) * 64 ≤ (i 1).val ∧ (i 1).val < win2_6.index t (1 : Fin 2) * 64 + 64
    rw [e3]; omega

/-- The output array of region 2 after its last point: the normalised array of the six arrays the region found. -/
theorem region2_final (c : Dev nD) :
    (dat2 V c).arrAt 6 cfg2.N = Cert.Bn.normalize (V c (Pipeline.arrRef spec2 0)) (V c (Pipeline.arrRef spec2 1))
      (V c (Pipeline.arrRef spec2 2)) (V c (Pipeline.arrRef spec2 3)) (V c (Pipeline.arrRef spec2 4))
      (V c (Pipeline.arrRef spec2 5)) :=
  (dat2 V c).arrAt_eq_of_cover 6 _ (fun t _ => region2_flushed V c t) region2_cover

end Cert.Bn

end
-- ==== Proof.Chain.lean ====
/-
  The idealized kernel program's result as a function of the arrays it was launched with. Reading the fold
  through @main backwards:
    the result        = the third pallas_call's output = `normalize` of the six arrays it stages;
    those six         = the aggregated features r and the bias row (as the second call found them), the two rows
                        mean = S/N and var = Q/N − mean² computed by the host from the second call's outputs,
                        and the scale and shift vectors laid out as rows;
    S, Q              = the second call's outputs = the column sums of r + b and of its square;
    r                 = the aggregation of the first call's output h and the edge table;
    h                 = the first call's output = x · Wt, with Wt the transposed weight matrix.
-/
import proofs.«144540_j49074296324300_1_alg».proof.Proof.Gen.KernelIdeal.Frame
import proofs.«144540_j49074296324300_1_alg».proof.Proof.Spec
import proofs.«144540_j49074296324300_1_alg».proof.Proof.Agg
import proofs.«144540_j49074296324300_1_alg».proof.Proof.Glue
import proofs.«144540_j49074296324300_1_alg».proof.Proof.Region0
import proofs.«144540_j49074296324300_1_alg».proof.Proof.Region1
import proofs.«144540_j49074296324300_1_alg».proof.Proof.Region2

set_option maxRecDepth 16384

noncomputable section

namespace Cert.Bn.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ### The pieces, named from the launch memory -/

/-- The weight matrix transposed. -/
def wt : FVec Ideal S64x64 .f32 :=
  transpose S64x64 [1, 0] (m ((c : Thread nD τ).loc main_arg2)) Facts₀.transposes_S64x64_S64x64_1_0
/-- The transformed features x · Wt. -/
def feat : FVec Ideal S100000x64 .f32 := Cert.Bn.linear (m ((c : Thread nD τ).loc main_arg0)) (wt m c)
/-- The aggregated features. -/
def agg : FVec Ideal S100000x64 .f32 := Cert.Bn.aggregate (feat m c) (m ((c : Thread nD τ).loc main_arg1))
/-- A vector of length 64 laid out as a 1 × 64 row. -/
def row (v : FVec Ideal S64 .f32) : FVec Ideal S1x64 .f32 := fun i => shapeCast S1x64 v Facts₀.shapeCasts_S64_S1x64 i
/-- The bias row. -/
def biasRow : FVec Ideal S1x64 .f32 := row (m ((c : Thread nD τ).loc main_arg3))
/-- The kernel's mean row: the column sums divided by the number of nodes. -/
def meanRow : FVec Ideal S1x64 .f32 := Host.divf (F := Ideal) (Cert.Bn.colSum (agg m c) (biasRow m c)) Cert.Bn.Glue.nodesRow
/-- The kernel's variance row: the mean square minus the squared mean. -/
def varRow : FVec Ideal S1x64 .f32 :=
  subf (F := Ideal) (Host.divf (F := Ideal) (Cert.Bn.colSumSq (agg m c) (biasRow m c)) Cert.Bn.Glue.nodesRow)
    (mulf (F := Ideal) (meanRow m c) (meanRow m c))

/-! ### Up to the first pallas_call's exit -/

theorem W1_arg0 : W1 (F := Ideal) m ρ c (Proc.devRef .tc main_arg0) = m ((c : Thread nD τ).loc main_arg0) :=
  Cert.Bn.Glue.s0_arg0 (W0 m ρ c)
theorem W1_v0 : W1 (F := Ideal) m ρ c (Proc.devRef .tc main_v0) = wt m c := Cert.Bn.Glue.s0_v0 (W0 m ρ c)

theorem W2_v1 : W2 (F := Ideal) m ρ c (Proc.devRef .tc main_v1) = feat m c := by
  refine (W2_arr m ρ c 2).trans ((Cert.Bn.region0_final (V1 m ρ) c).trans ?_)
  show Cert.Bn.linear (W1 m ρ c (Proc.devRef .tc main_arg0)) (W1 m ρ c (Proc.devRef .tc main_v0)) = _
  rw [W1_arg0, W1_v0]; rfl

theorem W2_arg (b : Ref sig .tc) (hb : ∀ w, Pipeline.arrRef spec0 w ≠ b) (hV : W1 (F := Ideal) m ρ c (Proc.devRef .tc b) = m ((c : Thread nD τ).loc b)) :
    W2 (F := Ideal) m ρ c (Proc.devRef .tc b) = m ((c : Thread nD τ).loc b) := (W2_of_ne m ρ c b hb).trans hV
theorem W2_arg1 : W2 (F := Ideal) m ρ c (Proc.devRef .tc main_arg1) = m ((c : Thread nD τ).loc main_arg1) :=
  W2_arg m ρ c main_arg1 (by decide) (Cert.Bn.Glue.s0_arg1 (W0 m ρ c))
theorem W2_arg3 : W2 (F := Ideal) m ρ c (Proc.devRef .tc main_arg3) = m ((c : Thread nD τ).loc main_arg3) :=
  W2_arg m ρ c main_arg3 (by decide) (Cert.Bn.Glue.s0_arg3 (W0 m ρ c))
theorem W2_arg4 : W2 (F := Ideal) m ρ c (Proc.devRef .tc main_arg4) = m ((c : Thread nD τ).loc main_arg4) :=
  W2_arg m ρ c main_arg4 (by decide) (Cert.Bn.Glue.s0_arg4 (W0 m ρ c))
theorem W2_arg5 : W2 (F := Ideal) m ρ c (Proc.devRef .tc main_arg5) = m ((c : Thread nD τ).loc main_arg5) :=
  W2_arg m ρ c main_arg5 (by decide) (Cert.Bn.Glue.s0_arg5 (W0 m ρ c))

/-! ### Up to the second pallas_call's entry -/

theorem W5_v44 : W5 (F := Ideal) m ρ c (Proc.devRef .tc main_v44) = agg m c := by
  refine (Cert.Bn.Glue.s3_v44 (W4 m ρ c)).trans ?_
  rw [show W4 (F := Ideal) m ρ c (Proc.devRef .tc main_v1) = feat m c from
        (Cert.Bn.Glue.s2_v1 (W3 m ρ c)).trans ((Cert.Bn.Glue.s1_v1 (W2 m ρ c)).trans (W2_v1 m ρ c)),
      show W4 (F := Ideal) m ρ c (Proc.devRef .tc main_v5) = Cert.Bn.srcIdx (m ((c : Thread nD τ).loc main_arg1)) from
        (Cert.Bn.Glue.s2_v5 (W3 m ρ c)).trans ((Cert.Bn.Glue.s1_v5 (W2 m ρ c)).trans (by rw [W2_arg1])),
      show W4 (F := Ideal) m ρ c (Proc.devRef .tc main_v8) = Cert.Bn.dstIdx (m ((c : Thread nD τ).loc main_arg1)) from
        (Cert.Bn.Glue.s2_v8 (W3 m ρ c)).trans ((Cert.Bn.Glue.s1_v8 (W2 m ρ c)).trans (by rw [W2_arg1])),
      show W4 (F := Ideal) m ρ c (Proc.devRef .tc main_v16) = Cert.Bn.invSqrtDeg (Cert.Bn.dstIdx (m ((c : Thread nD τ).loc main_arg1))) from
        (Cert.Bn.Glue.s2_v16 (W3 m ρ c)).trans (by
          have e14 : W3 (F := Ideal) m ρ c (Proc.devRef .tc main_v14) = _ := Cert.Bn.Glue.s1_v14 (W2 m ρ c)
          have e15 : W3 (F := Ideal) m ρ c (Proc.devRef .tc main_v15) = _ := Cert.Bn.Glue.s1_v15 (W2 m ρ c)
          have e2 : W3 (F := Ideal) m ρ c (Proc.devRef .tc main_cst_2) = _ := Cert.Bn.Glue.s1_cst2 (W2 m ρ c)
          rw [e14, e15, e2, W2_arg1]; rfl)]
  exact (Cert.Bn.Glue.aggregate_eq _ _).symm

theorem W5_v45 : W5 (F := Ideal) m ρ c (Proc.devRef .tc main_v45) = biasRow m c := by
  refine (Cert.Bn.Glue.s3_v45 (W4 m ρ c)).trans ?_
  rw [show W4 (F := Ideal) m ρ c (Proc.devRef .tc main_arg3) = m ((c : Thread nD τ).loc main_arg3) from
        (Cert.Bn.Glue.s2_arg3 (W3 m ρ c)).trans ((Cert.Bn.Glue.s1_arg3 (W2 m ρ c)).trans (W2_arg3 m ρ c))]
  rfl

theorem W5_arg4 : W5 (F := Ideal) m ρ c (Proc.devRef .tc main_arg4) = m ((c : Thread nD τ).loc main_arg4) :=
  (Cert.Bn.Glue.s3_arg4 (W4 m ρ c)).trans ((Cert.Bn.Glue.s2_arg4 (W3 m ρ c)).trans ((Cert.Bn.Glue.s1_arg4 (W2 m ρ c)).trans (W2_arg4 m ρ c)))
theorem W5_arg5 : W5 (F := Ideal) m ρ c (Proc.devRef .tc main_arg5) = m ((c : Thread nD τ).loc main_arg5) :=
  (Cert.Bn.Glue.s3_arg5 (W4 m ρ c)).trans ((Cert.Bn.Glue.s2_arg5 (W3 m ρ c)).trans ((Cert.Bn.Glue.s1_arg5 (W2 m ρ c)).trans (W2_arg5 m ρ c)))

/-! ### The second pallas_call's exit -/

/-- An input window's array is as entered. -/
theorem W6_in (w : Fin cfg1.W) (hw : (cfg1.win w).isOut = false) :
    W6 (F := Ideal) m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

theorem W6_v44 : W6 (F := Ideal) m ρ c (Proc.devRef .tc main_v44) = agg m c := (W6_in m ρ c 0 rfl).trans (W5_v44 m ρ c)
theorem W6_v45 : W6 (F := Ideal) m ρ c (Proc.devRef .tc main_v45) = biasRow m c := (W6_in m ρ c 1 rfl).trans (W5_v45 m ρ c)

theorem W6_sum : W6 (F := Ideal) m ρ c (Proc.devRef .tc main_v46_0) = Cert.Bn.colSum (agg m c) (biasRow m c) := by
  refine (W6_arr m ρ c 2).trans ((Cert.Bn.region1_sum (V5 m ρ) c).trans ?_)
  show Cert.Bn.colSum (W5 m ρ c (Proc.devRef .tc main_v44)) (W5 m ρ c (Proc.devRef .tc main_v45)) = _
  rw [W5_v44, W5_v45]
theorem W6_sumsq : W6 (F := Ideal) m ρ c (Proc.devRef .tc main_v46_1) = Cert.Bn.colSumSq (agg m c) (biasRow m c) := by
  refine (W6_arr m ρ c 3).trans ((Cert.Bn.region1_sumsq (V5 m ρ) c).trans ?_)
  show Cert.Bn.colSumSq (W5 m ρ c (Proc.devRef .tc main_v44)) (W5 m ρ c (Proc.devRef .tc main_v45)) = _
  rw [W5_v44, W5_v45]
theorem W6_arg4 : W6 (F := Ideal) m ρ c (Proc.devRef .tc main_arg4) = m ((c : Thread nD τ).loc main_arg4) :=
  (W6_of_ne m ρ c main_arg4 (by decide)).trans (W5_arg4 m ρ c)
theorem W6_arg5 : W6 (F := Ideal) m ρ c (Proc.devRef .tc main_arg5) = m ((c : Thread nD τ).loc main_arg5) :=
  (W6_of_ne m ρ c main_arg5 (by decide)).trans (W5_arg5 m ρ c)

/-! ### The third pallas_call -/

/-- The result array, from the launch memory. -/
theorem result_eq : W8 (F := Ideal) m ρ c (Proc.devRef .tc main_v55)
    = Cert.Bn.normalize (agg m c) (biasRow m c) (meanRow m c) (varRow m c)
        (row (m ((c : Thread nD τ).loc main_arg4))) (row (m ((c : Thread nD τ).loc main_arg5))) := by
  refine (W8_arr m ρ c 6).trans ((Cert.Bn.region2_final (V7 m ρ) c).trans ?_)
  show Cert.Bn.normalize (W7 m ρ c (Proc.devRef .tc main_v44)) (W7 m ρ c (Proc.devRef .tc main_v45))
      (W7 m ρ c (Proc.devRef .tc main_v48)) (W7 m ρ c (Proc.devRef .tc main_v52))
      (W7 m ρ c (Proc.devRef .tc main_v53)) (W7 m ρ c (Proc.devRef .tc main_v54)) = _
  rw [show W7 (F := Ideal) m ρ c (Proc.devRef .tc main_v44) = agg m c from (Cert.Bn.Glue.t_v44 (W6 m ρ c)).trans (W6_v44 m ρ c),
      show W7 (F := Ideal) m ρ c (Proc.devRef .tc main_v45) = biasRow m c from (Cert.Bn.Glue.t_v45 (W6 m ρ c)).trans (W6_v45 m ρ c),
      show W7 (F := Ideal) m ρ c (Proc.devRef .tc main_v48) = meanRow m c from
        (Cert.Bn.Glue.t_v48 (W6 m ρ c)).trans (by rw [W6_sum]; rfl),
      show W7 (F := Ideal) m ρ c (Proc.devRef .tc main_v52) = varRow m c from
        (Cert.Bn.Glue.t_v52 (W6 m ρ c)).trans (by rw [W6_sum, W6_sumsq]; rfl),
      show W7 (F := Ideal) m ρ c (Proc.devRef .tc main_v53) = row (m ((c : Thread nD τ).loc main_arg4)) from
        (Cert.Bn.Glue.t_v53 (W6 m ρ c)).trans (by rw [W6_arg4]; rfl),
      show W7 (F := Ideal) m ρ c (Proc.devRef .tc main_v54) = row (m ((c : Thread nD τ).loc main_arg5)) from
        (Cert.Bn.Glue.t_v54 (W6 m ρ c)).trans (by rw [W6_arg5]; rfl)]

end Cert.Bn.Chain

end
-- ==== Proof.SpecRef.lean ====
/-
  The reference's arrangement of the normalisation, as one function of the aggregated features r (100000 × 64),
  the bias b, the scale γ and the shift β (vectors of length 64). With o[n,c] = r[n,c] + b[c]:
    μ[c]   = (Σ_n o[n,c]) / N
    v[c]   = (Σ_n (o[n,c] − μ[c])²) / N                 (the mean squared deviation)
    y[n,c] = max((o[n,c] − μ[c]) · rsqrt(v[c] + ε) · γ[c] + β[c], 0)
  N is the single-precision word 0x47C35000 (one hundred thousand), ε the word 0x3727C5AC, the clamp the zero word;
  all three are left as words.
-/
import proofs.«144540_j49074296324300_1_alg».proof.Proof.Spec

noncomputable section

namespace Cert.Bn

open Idealize.ShloMosaic Idealize.ShloMosaic.ValueIdx Cert.KernelIdeal

/-- The number of nodes, as the program's word. -/
abbrev nodesWord : EReal := Ideal.ofBits .f32 0x47C35000#32

/-- o = r + b, the bias added to every row. -/
def biased (r : S100000x64.Idx → EReal) (b : S64.Idx → EReal) : S100000x64.Idx → EReal :=
  fun i => r i + b (ix1 (n := 64) (i 1))

/-- The column mean of `o`. -/
def colMean (o : S100000x64.Idx → EReal) (q : Fin 64) : EReal :=
  Ideal.div (∑ n : Fin 100000, o (ix2 (n0 := 100000) (n1 := 64) n q)) nodesWord

/-- The column variance of `o`: the mean of the squared deviations from the column mean. -/
def colVar (o : S100000x64.Idx → EReal) (q : Fin 64) : EReal :=
  Ideal.div (∑ n : Fin 100000, (o (ix2 (n0 := 100000) (n1 := 64) n q) - colMean o q)
      * (o (ix2 (n0 := 100000) (n1 := 64) n q) - colMean o q)) nodesWord

/-- The reference's result from the aggregated features. -/
def refFormula (r : S100000x64.Idx → EReal) (b gamma beta : S64.Idx → EReal) : S100000x64.Idx → EReal :=
  fun i => max
    (((biased r b i - colMean (biased r b) (i 1))
        * Ideal.rsqrt (colVar (biased r b) (i 1) + Ideal.ofBits .f32 0x3727C5AC#32))
      * gamma (ix1 (n := 64) (i 1)) + beta (ix1 (n := 64) (i 1)))
    (Ideal.ofBits .f32 0x00000000#32)

end Cert.Bn

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«144540_j49074296324300_1_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibBatchMoments.lean ====
/-
  The mean and the variance of a batch at exact arithmetic, and a column sum taken block by block.

  Let h be a finite family of real numbers with n > 0 members, S = ∑ h its sum, Q = ∑ h² the sum of its squares
  and μ = S / n its mean. The mean of the squared deviations is the mean of the squares minus the square of the
  mean:

      (∑ (h − μ)²) / n  =  Q / n − μ² ,

  because ∑ (h − μ)² = Q − 2 μ S + n μ² and S = n μ. Both sides are a non-negative real, so adding a positive
  real to either gives a positive real, which has a positive real reciprocal square root.

  On the extended reals the same holds as long as every member of the family is a real number (neither
  infinity): choose the real numbers, push the inclusion of the reals out through the sums, the products and the
  quotient by n, and the statement is the real one. With an infinite member it fails (∞ − ∞ appears).
  A program's sum along an axis reads "initial value + ∑", the initial value being zero, so every statement is
  given a second time with such a value in front of each sum.

  The second part: an accumulator that starts at zero and receives, block after block, the sum of the block's
  terms ends at the sum of all the terms. This uses only that the addition is commutative and associative, so
  it holds on the extended reals with no finiteness hypothesis.
-/
import Idealize.ShloMosaic.PureOps.Ideal.Laws
import proofs.«144540_j49074296324300_1_alg».proof.Proof.LibERealMatrix
import proofs.«144540_j49074296324300_1_alg».proof.Proof.LibIdealFinite
import proofs.«144540_j49074296324300_1_alg».proof.Proof.LibTileSums

noncomputable section

namespace LibBatchMoments

open Idealize.ShloMosaic LibERealMatrix LibIdealFinite Finset

/-! ### The identity on the reals -/

section Real
variable {ι : Type*}

/-- The sum of the squared deviations from any number m: ∑ (g − m)² = ∑ g² − 2 m ∑ g + n m², n the number
    of terms. -/
theorem real_sum_sq_dev (s : Finset ι) (g : ι → ℝ) {n : ℝ} (hcard : (s.card : ℝ) = n) (m : ℝ) :
    ∑ i ∈ s, (g i - m) * (g i - m) = (∑ i ∈ s, g i * g i) - 2 * m * (∑ i ∈ s, g i) + n * (m * m) := by
  have hexp : ∀ i, (g i - m) * (g i - m) = g i * g i - 2 * m * g i + m * m := fun i => by ring
  simp only [hexp]
  rw [Finset.sum_add_distrib, Finset.sum_sub_distrib, ← Finset.mul_sum, Finset.sum_const, nsmul_eq_mul, hcard]

/-- The mean of the squared deviations from the mean is the mean of the squares minus the square of the mean. -/
theorem real_mean_sq_dev (s : Finset ι) (g : ι → ℝ) {n : ℝ} (hn : n ≠ 0) (hcard : (s.card : ℝ) = n) :
    (∑ i ∈ s, (g i - (∑ i ∈ s, g i) / n) * (g i - (∑ i ∈ s, g i) / n)) / n
      = (∑ i ∈ s, g i * g i) / n - (∑ i ∈ s, g i) / n * ((∑ i ∈ s, g i) / n) := by
  rw [real_sum_sq_dev s g hcard]
  field_simp
  ring

/-- A mean of squares of real numbers is non-negative. -/
theorem real_mean_sq_nonneg (s : Finset ι) (g : ι → ℝ) {n : ℝ} (hn : 0 < n) (m : ℝ) :
    0 ≤ (∑ i ∈ s, (g i - m) * (g i - m)) / n :=
  div_nonneg (Finset.sum_nonneg fun i _ => mul_self_nonneg _) hn.le

end Real

/-! ### The identity on the extended reals, for a family of real numbers -/

section Extended
variable {ι : Type*}

/-- The word of 50000.0 in single precision denotes the real 50000. -/
theorem ofBits_50000 : Ideal.ofBits .f32 0x47435000#32 = ((50000 : ℝ) : EReal) := by
  simp [Ideal.ofBits, Ideal.ieee, -EReal.coe_mul]; norm_num

/-- The mean of finitely many real numbers, the quotient of their sum by a nonzero real, is a real number. -/
theorem fin_mean (s : Finset ι) (h : ι → EReal) (hh : ∀ i, Fin' (h i)) {N : EReal} {n : ℝ} (hN : N = (n : EReal))
    (hn : n ≠ 0) : Fin' (Ideal.div (∑ i ∈ s, h i) N) :=
  fin_div (Fin'.sum s h hh) (by rw [hN]; exact Fin'.coe n) (by rw [hN]; exact_mod_cast hn)

/-- The mean of the squared deviations of real numbers from ANY real number μ, the divisor a positive real:
    a real number, and non-negative. -/
theorem mean_sq_dev_fin_nonneg (s : Finset ι) (h : ι → EReal) (hh : ∀ i, Fin' (h i)) {N : EReal} {n : ℝ}
    (hN : N = (n : EReal)) (hn : 0 < n) {μ : EReal} (hμ : Fin' μ) :
    Fin' (Ideal.div (∑ i ∈ s, (h i - μ) * (h i - μ)) N) ∧ 0 ≤ Ideal.div (∑ i ∈ s, (h i - μ) * (h i - μ)) N := by
  have hd : ∀ i, Fin' ((h i - μ) * (h i - μ)) := fun i => (fin_sub (hh i) hμ).mul (fin_sub (hh i) hμ)
  have hNf : Fin' N := by rw [hN]; exact Fin'.coe n
  have hN0 : 0 < N := by rw [hN]; exact EReal.coe_pos.mpr hn
  exact ⟨fin_div (Fin'.sum s _ hd) hNf hN0.ne',
    div_nonneg_of_fin (Fin'.sum s _ hd) hNf (Finset.sum_nonneg fun i _ => fin_mul_self_nonneg (fin_sub (hh i) hμ)) hN0⟩

/-- THE VARIANCE LAW. For real numbers h i (i in s), n > 0 their number and μ their mean (∑ h) / n:
    the mean of the squared deviations from μ is the mean of the squares minus μ². -/
theorem mean_sq_dev_eq (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Ideal.div (∑ i ∈ s, (h i - μ) * (h i - μ)) N = Ideal.div (∑ i ∈ s, h i * h i) N - μ * μ := by
  obtain ⟨g, hg⟩ := exists_real_family h hh
  have hn0 : n ≠ 0 := hn.ne'
  have hS : ∑ i ∈ s, h i = ((∑ i ∈ s, g i : ℝ) : EReal) := by
    rw [coe_sum]; exact Finset.sum_congr rfl fun i _ => hg i
  have hμ' : μ = (((∑ i ∈ s, g i) / n : ℝ) : EReal) := by
    rw [hμ, hS, hN, div_coe_coe _ hn0]
  have hD : ∑ i ∈ s, (h i - μ) * (h i - μ)
      = ((∑ i ∈ s, (g i - (∑ i ∈ s, g i) / n) * (g i - (∑ i ∈ s, g i) / n) : ℝ) : EReal) := by
    rw [coe_sum]
    refine Finset.sum_congr rfl fun i _ => ?_
    rw [hg i, hμ', ← EReal.coe_sub, ← EReal.coe_mul]
  have hQ : ∑ i ∈ s, h i * h i = ((∑ i ∈ s, g i * g i : ℝ) : EReal) := by
    rw [coe_sum]
    refine Finset.sum_congr rfl fun i _ => ?_
    rw [hg i, ← EReal.coe_mul]
  rw [hD, hQ, hN, div_coe_coe _ hn0, div_coe_coe _ hn0, hμ', ← EReal.coe_mul, ← EReal.coe_sub]
  exact congrArg _ (real_mean_sq_dev s g hn0 hcard)

/-- Mean of the squares minus the square of the mean: a real number, and non-negative (it is a mean of squared
    deviations). -/
theorem mean_sq_sub_sq_mean_fin_nonneg (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Fin' (Ideal.div (∑ i ∈ s, h i * h i) N - μ * μ) ∧ 0 ≤ Ideal.div (∑ i ∈ s, h i * h i) N - μ * μ := by
  rw [← mean_sq_dev_eq s h hh hN hn hcard hμ]
  exact mean_sq_dev_fin_nonneg s h hh hN hn (by rw [hμ]; exact fin_mean s h hh hN hn.ne')

/-- A non-negative real plus a positive real: a positive real, whose reciprocal square root is a positive real.
    (A variance plus the small constant that keeps the normalisation away from zero.) -/
theorem fin_pos_add {v e : EReal} (hv : Fin' v) (hv0 : 0 ≤ v) (he : Fin' e) (he0 : 0 < e) :
    Fin' (v + e) ∧ 0 < v + e :=
  ⟨hv.add he, add_pos_of_nonneg_of_pos' hv0 he0⟩

theorem fin_rsqrt_add {v e : EReal} (hv : Fin' v) (hv0 : 0 ≤ v) (he : Fin' e) (he0 : 0 < e) :
    Fin' (Ideal.rsqrt (v + e)) ∧ 0 < Ideal.rsqrt (v + e) :=
  fin_rsqrt (fin_pos_add hv hv0 he he0).1 (fin_pos_add hv hv0 he he0).2

/-! #### The same with an initial value, which is zero, in front of each sum -/

/-- The variance law with each sum read as "initial value + ∑", the three initial values being zero. -/
theorem mean_sq_dev_eq_init (s : Finset ι) (h : ι → EReal) (hh : ∀ i, Fin' (h i)) {N : EReal} {n : ℝ}
    (hN : N = (n : EReal)) (hn : 0 < n) (hcard : (s.card : ℝ) = n) {z₁ z₂ z₃ : EReal} (h₁ : z₁ = 0) (h₂ : z₂ = 0)
    (h₃ : z₃ = 0) {μ : EReal} (hμ : μ = Ideal.div (z₁ + ∑ i ∈ s, h i) N) :
    Ideal.div (z₂ + ∑ i ∈ s, (h i - μ) * (h i - μ)) N = Ideal.div (z₃ + ∑ i ∈ s, h i * h i) N - μ * μ := by
  rw [h₁, zero_add] at hμ
  rw [h₂, h₃, zero_add, zero_add]
  exact mean_sq_dev_eq s h hh hN hn hcard hμ

/-- The variance law with 0 + in front of each sum. -/
theorem mean_sq_dev_eq_zero_add (s : Finset ι) (h : ι → EReal) (hh : ∀ i, Fin' (h i)) {N : EReal} {n : ℝ}
    (hN : N = (n : EReal)) (hn : 0 < n) (hcard : (s.card : ℝ) = n) {μ : EReal}
    (hμ : μ = Ideal.div (0 + ∑ i ∈ s, h i) N) :
    Ideal.div (0 + ∑ i ∈ s, (h i - μ) * (h i - μ)) N = Ideal.div (0 + ∑ i ∈ s, h i * h i) N - μ * μ :=
  mean_sq_dev_eq_init s h hh hN hn hcard rfl rfl rfl hμ

theorem fin_mean_init (s : Finset ι) (h : ι → EReal) (hh : ∀ i, Fin' (h i)) {N : EReal} {n : ℝ} (hN : N = (n : EReal))
    (hn : n ≠ 0) {z : EReal} (hz : z = 0) : Fin' (Ideal.div (z + ∑ i ∈ s, h i) N) := by
  rw [hz, zero_add]; exact fin_mean s h hh hN hn

theorem mean_sq_dev_fin_nonneg_init (s : Finset ι) (h : ι → EReal) (hh : ∀ i, Fin' (h i)) {N : EReal} {n : ℝ}
    (hN : N = (n : EReal)) (hn : 0 < n) {μ : EReal} (hμ : Fin' μ) {z : EReal} (hz : z = 0) :
    Fin' (Ideal.div (z + ∑ i ∈ s, (h i - μ) * (h i - μ)) N)
      ∧ 0 ≤ Ideal.div (z + ∑ i ∈ s, (h i - μ) * (h i - μ)) N := by
  rw [hz, zero_add]; exact mean_sq_dev_fin_nonneg s h hh hN hn hμ

theorem mean_sq_sub_sq_mean_fin_nonneg_init (s : Finset ι) (h : ι → EReal) (hh : ∀ i, Fin' (h i)) {N : EReal} {n : ℝ}
    (hN : N = (n : EReal)) (hn : 0 < n) (hcard : (s.card : ℝ) = n) {z₁ z₃ : EReal} (h₁ : z₁ = 0) (h₃ : z₃ = 0)
    {μ : EReal} (hμ : μ = Ideal.div (z₁ + ∑ i ∈ s, h i) N) :
    Fin' (Ideal.div (z₃ + ∑ i ∈ s, h i * h i) N - μ * μ) ∧ 0 ≤ Ideal.div (z₃ + ∑ i ∈ s, h i * h i) N - μ * μ := by
  rw [h₁, zero_add] at hμ
  rw [h₃, zero_add]
  exact mean_sq_sub_sq_mean_fin_nonneg s h hh hN hn hcard hμ

end Extended

/-! ### A set of indices listed without repetition

A sum along an axis runs over the indices that reduce to a given place; listed by a one-to-one family e
(the rows of a column, say), it is a sum over the list, and the set has as many members as the list. -/

section Listed
variable {ι κ : Type*} [Fintype κ] [DecidableEq ι]

theorem eq_image_of_listed (s : Finset ι) (e : κ → ι) (hs : ∀ i, i ∈ s ↔ ∃ k, e k = i) :
    s = Finset.univ.image e := by
  ext i
  rw [hs i, Finset.mem_image]
  exact ⟨fun ⟨k, hk⟩ => ⟨k, Finset.mem_univ k, hk⟩, fun ⟨k, _, hk⟩ => ⟨k, hk⟩⟩

theorem sum_eq_sum_listed {M : Type*} [AddCommMonoid M] (s : Finset ι) (e : κ → ι) (he : Function.Injective e)
    (hs : ∀ i, i ∈ s ↔ ∃ k, e k = i) (f : ι → M) : ∑ i ∈ s, f i = ∑ k, f (e k) := by
  rw [eq_image_of_listed s e hs, Finset.sum_image fun a _ b _ hab => he hab]

theorem card_eq_card_listed (s : Finset ι) (e : κ → ι) (he : Function.Injective e)
    (hs : ∀ i, i ∈ s ↔ ∃ k, e k = i) : s.card = Fintype.card κ := by
  rw [eq_image_of_listed s e hs, Finset.card_image_of_injective _ he, Finset.card_univ]

end Listed

/-! ### A program's sum along ONE axis, read as a sum over that axis's coordinates -/

section OneAxis
variable {s t u : Shape} {φ : FTy} {a : Fin s.rank}

/-- An entry of a host sum along one axis: the initial value plus the sum, over the coordinates k of that axis,
    of the operand's entry at the result's index with k inserted on the axis. -/
theorem reduceAdd_single_apply (x : FVec Ideal s φ) (init : u.Idx → Ideal φ) (h' : s.ReducesTo [a] t)
    (h : s.Reduces [a] t) (hu : 0 < u.numel) (j : t.Idx) :
    Host.reduceAdd (F := Ideal) x init h' hu j
      = init (Shape.Idx.first hu) + ∑ k : Fin (s.size a), x (h.lift j k) := by
  rw [reduceAdd_apply, Shape.ReducesTo.drop_eq_drop h' h, h.sum_filter_drop_single x j]

/-- A vector unit's sum along one axis, likewise (it has no initial value). -/
theorem vectorReduceAdd_single_apply (x : FVec Ideal s φ) (h : s.Reduces [a] t) (j : t.Idx) :
    Ideal.reduceAdd h x j = ∑ k : Fin (s.size a), x (h.lift j k) :=
  h.sum_filter_drop_single x j

/-- As many indices reduce to a place as the axis has coordinates. -/
theorem card_filter_drop_single (h : s.Reduces [a] t) (j : t.Idx) :
    (Finset.univ.filter fun i => h.drop i = j).card = s.size a := by
  classical
  rw [h.filter_drop_eq_image_lift j, Finset.card_image_of_injective _ (h.lift_injective j), Finset.card_univ,
    Fintype.card_fin]

end OneAxis

/-- The number of members of Fin m, as a real. -/
theorem card_univ_fin_cast (m : ℕ) : (((Finset.univ : Finset (Fin m)).card : ℕ) : ℝ) = (m : ℝ) := by
  rw [Finset.card_univ, Fintype.card_fin]

/-! ### A sum accumulated block by block -/

section Blocks
variable {M : Type*} [AddCommMonoid M]

/-- An accumulator that starts at zero and receives one term per step holds, after n steps, the sum of the n
    terms. -/
theorem acc_eq_sum_range (n : ℕ) (acc blk : ℕ → M) (h0 : acc 0 = 0)
    (hstep : ∀ k, k < n → acc (k + 1) = acc k + blk k) : acc n = ∑ k ∈ range n, blk k := by
  have key : ∀ m, m ≤ n → acc m = ∑ k ∈ range m, blk k := by
    intro m
    induction m with
    | zero => intro _; rw [h0, Finset.sum_range_zero]
    | succ m ih =>
      intro hm
      rw [hstep m (Nat.lt_of_succ_le hm), ih (Nat.le_of_succ_le hm), Finset.sum_range_succ]
  exact key n le_rfl

/-- A sum over n · b consecutive naturals accumulated in n blocks of b: the accumulator starts at zero and step k
    adds the sum of f over the b naturals b · k + r (r < b) of block k; after the n steps it holds the sum of f
    over all the naturals below n · b. -/
theorem acc_blocks (n b : ℕ) (f : ℕ → M) (acc : ℕ → M) (h0 : acc 0 = 0)
    (hstep : ∀ k, k < n → acc (k + 1) = acc k + ∑ r : Fin b, f (b * k + r.val)) :
    acc n = ∑ i : Fin (n * b), f i.val := by
  rw [LibTileSums.sum_tiles n b (n * b) rfl f]
  exact acc_eq_sum_range n acc (fun k => ∑ r : Fin b, f (b * k + r.val)) h0 hstep

/-- The same as a program writes it: each block's sum is itself taken from zero, the block's naturals are
    written k · b + r, and the whole sum is read from zero as well. -/
theorem acc_blocks_zero_add (n b : ℕ) (f : ℕ → M) (acc : ℕ → M) (h0 : acc 0 = 0)
    (hstep : ∀ k, k < n → acc (k + 1) = acc k + (0 + ∑ r : Fin b, f (k * b + r.val))) :
    acc n = 0 + ∑ i : Fin (n * b), f i.val := by
  rw [zero_add]
  refine acc_blocks n b f acc h0 fun k hk => ?_
  rw [hstep k hk, zero_add, Nat.mul_comm k b]

/-- The same for a family indexed by the n · b positions themselves: position r of block k is the one numbered
    r + b · k (LibERealMatrix.finProdFinEquiv_val). -/
theorem acc_blocks_fin (n b : ℕ) (f : Fin (n * b) → M) (acc : ℕ → M) (h0 : acc 0 = 0)
    (hstep : ∀ k : Fin n, acc (k.val + 1) = acc k.val + ∑ r : Fin b, f (finProdFinEquiv (k, r))) :
    acc n = ∑ i, f i := by
  rw [LibERealMatrix.sum_fin_mul n b f,
    acc_eq_sum_range n acc (fun k => if hk : k < n then ∑ r : Fin b, f (finProdFinEquiv (⟨k, hk⟩, r)) else 0) h0
      (fun k hk => by rw [dif_pos hk]; exact hstep ⟨k, hk⟩),
    ← Fin.sum_univ_eq_sum_range (fun k => if hk : k < n then ∑ r : Fin b, f (finProdFinEquiv (⟨k, hk⟩, r)) else 0) n]
  exact Finset.sum_congr rfl fun k _ => dif_pos k.isLt

end Blocks

end LibBatchMoments

end
-- ==== Proof.Bridge.lean ====
/-
  The law that joins the two programs. With o[n,q] = r[n,q] + b[q] over the N = 100000 nodes, the kernel divides
  the column sums S = Σ_n o and Q = Σ_n o² by N and normalises with  mean = S/N,  var = Q/N − mean²;  the
  reference normalises with the same mean and  var = (Σ_n (o − mean)²)/N.  The two variances are equal because
  every o[n,q] is a real number (expand the square; N · (1/N) = 1) — on the extended reals the expansion fails at
  the infinities, so this is where the certificate uses that the inputs are finite. Everything after the variance
  (add ε, reciprocal square root, scale, shift, clamp) is the same expression of equal values.
-/
import proofs.«144540_j49074296324300_1_alg».proof.Proof.Spec
import proofs.«144540_j49074296324300_1_alg».proof.Proof.SpecRef
import proofs.«144540_j49074296324300_1_alg».proof.Proof.LibBatchMoments

noncomputable section

namespace Cert.Bn.Bridge

open Idealize.ShloMosaic Idealize.ShloMosaic.ValueIdx Cert.KernelIdeal LibERealMatrix LibBatchMoments

/-- The word 0x47C35000 denotes one hundred thousand. -/
theorem nodesWord_eq : Cert.Bn.nodesWord = ((100000 : ℝ) : EReal) := by
  unfold Cert.Bn.nodesWord
  simp [Ideal.ofBits, Ideal.ieee, -EReal.coe_mul]; norm_num

/-- One column: the mean squared deviation from the mean is the mean square minus the squared mean. -/
theorem column_var (o : Fin 100000 → EReal) (ho : ∀ n, Fin' (o n)) {μ : EReal}
    (hμ : μ = Ideal.div (∑ n, o n) Cert.Bn.nodesWord) :
    Ideal.div (∑ n, (o n - μ) * (o n - μ)) Cert.Bn.nodesWord = Ideal.div (∑ n, o n * o n) Cert.Bn.nodesWord - μ * μ :=
  mean_sq_dev_eq Finset.univ o ho nodesWord_eq (by norm_num) (by simp) hμ

/-- The kernel's arrangement is the reference's, for real entries of `r` and `b`. The 1 × 64 rows `b2`, `g2`,
    `be2` are the vectors `b`, `gamma`, `beta` laid out as rows; `mean` and `var` are the kernel's two rows. -/
theorem normalize_eq_refFormula
    (r : S100000x64.Idx → EReal) (b gamma beta : S64.Idx → EReal) (b2 g2 be2 mean var : S1x64.Idx → EReal)
    (hr : ∀ i, Fin' (r i)) (hb : ∀ q, Fin' (b q))
    (hb2 : ∀ q : Fin 64, b2 (ix2 (n0 := 1) (n1 := 64) 0 q) = b (ix1 (n := 64) q))
    (hg2 : ∀ q : Fin 64, g2 (ix2 (n0 := 1) (n1 := 64) 0 q) = gamma (ix1 (n := 64) q))
    (hbe2 : ∀ q : Fin 64, be2 (ix2 (n0 := 1) (n1 := 64) 0 q) = beta (ix1 (n := 64) q))
    (hmean : ∀ q : Fin 64, mean (ix2 (n0 := 1) (n1 := 64) 0 q)
      = Ideal.div (∑ n : Fin 100000, (r (ix2 (n0 := 100000) (n1 := 64) n q) + b2 (ix2 (n0 := 1) (n1 := 64) 0 q))) Cert.Bn.nodesWord)
    (hvar : ∀ q : Fin 64, var (ix2 (n0 := 1) (n1 := 64) 0 q)
      = Ideal.div (∑ n : Fin 100000, (r (ix2 (n0 := 100000) (n1 := 64) n q) + b2 (ix2 (n0 := 1) (n1 := 64) 0 q))
          * (r (ix2 (n0 := 100000) (n1 := 64) n q) + b2 (ix2 (n0 := 1) (n1 := 64) 0 q))) Cert.Bn.nodesWord
        - mean (ix2 (n0 := 1) (n1 := 64) 0 q) * mean (ix2 (n0 := 1) (n1 := 64) 0 q)) :
    Cert.Bn.normalize r b2 mean var g2 be2 = Cert.Bn.refFormula r b gamma beta := by
  funext i
  obtain ⟨p, q, rfl⟩ : ∃ (p : Fin 100000) (q : Fin 64), i = ix2 p q := ⟨i 0, i 1, eq_ix2 i⟩
  -- the column's entries, its mean and its variance in the reference's form
  have hμ : mean (ix2 (n0 := 1) (n1 := 64) 0 q) = Cert.Bn.colMean (Cert.Bn.biased r b) q := by
    rw [hmean q, hb2 q]; rfl
  have ho : ∀ n : Fin 100000, Fin' (Cert.Bn.biased r b (ix2 (n0 := 100000) (n1 := 64) n q)) :=
    fun n => (hr _).add (hb _)
  have hv : var (ix2 (n0 := 1) (n1 := 64) 0 q) = Cert.Bn.colVar (Cert.Bn.biased r b) q := by
    rw [hvar q, hμ, hb2 q]
    exact (column_var (fun n => Cert.Bn.biased r b (ix2 (n0 := 100000) (n1 := 64) n q)) ho rfl).symm
  show max ((((r (ix2 p q) + b2 (ix2 (n0 := 1) (n1 := 64) 0 q)) - mean (ix2 (n0 := 1) (n1 := 64) 0 q))
        * Ideal.rsqrt (var (ix2 (n0 := 1) (n1 := 64) 0 q) + Ideal.ofBits .f32 0x3727C5AC#32))
      * g2 (ix2 (n0 := 1) (n1 := 64) 0 q) + be2 (ix2 (n0 := 1) (n1 := 64) 0 q)) (Ideal.ofBits .f32 0x00000000#32)
    = max ((((r (ix2 p q) + b (ix1 (n := 64) q)) - Cert.Bn.colMean (Cert.Bn.biased r b) q)
        * Ideal.rsqrt (Cert.Bn.colVar (Cert.Bn.biased r b) q + Ideal.ofBits .f32 0x3727C5AC#32))
      * gamma (ix1 (n := 64) q) + beta (ix1 (n := 64) q)) (Ideal.ofBits .f32 0x00000000#32)
  rw [hb2 q, hg2 q, hbe2 q, hμ, hv]

end Cert.Bn.Bridge

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«144540_j49074296324300_1_alg».proof.Proof.LibERealMatrix
import proofs.«144540_j49074296324300_1_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.Finite.lean ====
/-
  Every float entry the computation meets is a real number.

  * The precondition is the conjunction, input by input, of "every entry has absolute value below +∞"; read at
    exact arithmetic it says that x, W and b (and γ, β, not needed here) are arrays of real numbers.
  * A matrix product of real matrices is real; gathers only move entries; a scatter-add sums finitely many of
    them. The in-degree is a finite count, so its reciprocal square root is a real wherever the degree is
    positive, and the guarded form puts 0 elsewhere: the aggregation of a real feature matrix is real, whatever
    the integer edge table holds.
-/
import proofs.«144540_j49074296324300_1_alg».proof.Pre_finite_inputs
import proofs.«144540_j49074296324300_1_alg».proof.Proof.Gen.Pre_finite_inputs
import proofs.«144540_j49074296324300_1_alg».proof.Proof.LibFiniteEntries
import proofs.«144540_j49074296324300_1_alg».proof.Proof.LibIdealFinite
import proofs.«144540_j49074296324300_1_alg».proof.Proof.LibGatherScatterFinite
import proofs.«144540_j49074296324300_1_alg».proof.Proof.Agg
import proofs.«144540_j49074296324300_1_alg».proof.Proof.Spec
import Idealize.ShloMosaic.Lib.Affine

noncomputable section

namespace Cert.Bn.Finite

open Idealize.ShloMosaic Idealize.ShloMosaic.ValueIdx LibERealMatrix LibIdealFinite

/-- An array that is the image of its real parts has real entries. -/
theorem allFin_of_eq_coe {s : Shape} {x : s.Idx → EReal} (h : x = fun i => (((x i).toReal : ℝ) : EReal)) : AllFin x :=
  fun i => by rw [h]; exact Fin'.coe _

section Pre
variable [Cert.Pre_finite_inputs.Facts]
open Cert.Pre_finite_inputs Cert.Pre_finite_inputs.Facts

/-- The precondition, all ones, makes x, W and b arrays of real numbers. -/
theorem reals_of_pre (x : FVec Ideal Cert.Pre_finite_inputs.S100000x64 .f32) (ei : IVec Cert.Pre_finite_inputs.S2x1600000 32)
    (w : FVec Ideal Cert.Pre_finite_inputs.S64x64 .f32) (b g be : FVec Ideal Cert.Pre_finite_inputs.S64 .f32)
    (h : Cert.Pre_finite_inputs.fn (F := Ideal) x ei w b g be = fun _ => 1#1) :
    AllFin x ∧ AllFin w ∧ AllFin b := by
  have h0 := congrFun h ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, hb⟩ := IntOp.andi_eq_one.1 h2
  obtain ⟨hx, hw⟩ := IntOp.andi_eq_one.1 h3
  exact ⟨allFin_of_eq_coe (LibFiniteEntries.real_of_all_abs_lt x _ (fun _ => rfl) _ _ _ _ hx),
    allFin_of_eq_coe (LibFiniteEntries.real_of_all_abs_lt w _ (fun _ => rfl) _ _ _ _ hw),
    allFin_of_eq_coe (LibFiniteEntries.real_of_all_abs_lt b _ (fun _ => rfl) _ _ _ _ hb)⟩

end Pre

/-! ### The product and the aggregation keep real entries -/

section Aggregation
variable [Cert.KernelIdeal.Facts₀]
open Cert.KernelIdeal Cert.KernelIdeal.Facts₀ Cert.Bn LibGatherScatterFinite

/-- A product of real matrices is real. -/
theorem allFin_linear {x : S100000x64.Idx → EReal} {wt : S64x64.Idx → EReal} (hx : AllFin x) (hw : AllFin wt) :
    AllFin (Cert.Bn.linear x wt) :=
  fun _ => Fin'.sum _ _ fun _ => (hx _).mul (hw _)

/-- The word 0x3F800000 denotes one. -/
theorem ofBits_one_coe : Ideal.ofBits .f32 0x3F800000#32 = ((1 : ℝ) : EReal) := by
  simp [Ideal.ofBits, Ideal.ieee, -EReal.coe_mul]; norm_num

/-- The in-degree, a sum of ones, is real at every node. -/
theorem allFin_degree (dst : EdgeIdx) : AllFin (degree dst) :=
  allFin_scatterAdd _ _ (allFin_bcast_constant _ _ ofBits_zero_coe) (allFin_bcast_constant _ _ ofBits_one_coe)

/-- A float comparison "x > y" that answers 1 at exact arithmetic says y < x. -/
theorem lt_of_cmp_ogt {x y : EReal} (h : Ideal.cmp .ogt x y = 1#1) : y < x := by
  by_contra hn
  have h' : BitVec.ofBool (decide (y < x)) = 1#1 := h
  rw [decide_eq_false hn] at h'
  exact absurd h' (by decide)

/-- Over any shape: where a real-valued array d is positive take its reciprocal square root, elsewhere an entry
    of an all-zero array; the result has real entries. -/
theorem allFin_guarded_rsqrt {s : Shape} (d z z' : FVec Ideal s .f32) (hd : AllFin d) (hz : ∀ i, z i = 0)
    (hz' : ∀ i, z' i = 0) :
    AllFin (select (cmpf (F := Ideal) .ogt d z) (Host.rsqrt (F := Ideal) d) z') := by
  intro i
  rw [ValueIdx.select_apply]
  by_cases hc : cmpf (F := Ideal) .ogt d z i = 1#1
  · rw [hc, ValueIdx.select_one]
    rw [ValueIdx.cmpf_apply, Ideal.cmpf_def, hz i] at hc
    exact (fin_rsqrt (hd i) (lt_of_cmp_ogt hc)).1
  · rw [ValueIdx.eq_zero_of_ne_one hc, ValueIdx.select_zero, hz' i]
    exact fin_zero

/-- The guarded reciprocal square root of the in-degree is real at every node: where the degree is positive it
    is the reciprocal square root of a positive real, elsewhere it is zero. -/
theorem allFin_invSqrtDeg (dst : EdgeIdx) : AllFin (invSqrtDeg dst) :=
  allFin_guarded_rsqrt _ _ _ (allFin_degree dst) (fun _ => ofBits_zero) (fun _ => ofBits_zero)

/-- The edge weights are real. -/
theorem allFin_edgeNorm (src dst : EdgeIdx) : AllFin (edgeNorm src dst) :=
  allFin_mulf (allFin_gather _ _ (allFin_invSqrtDeg dst)) (allFin_gather _ _ (allFin_invSqrtDeg dst))

/-- The aggregation of a real feature matrix is real, whatever the edge table holds. -/
theorem allFin_aggregate {h : Feat} (ei : EdgeTable) (hh : AllFin h) : AllFin (Cert.Bn.aggregate h ei) :=
  allFin_scatterAdd _ _ (allFin_bcast_constant _ _ ofBits_zero_coe)
    (allFin_mulf (allFin_gather _ _ hh)
      (allFin_broadcastInDim _ _ _ (allFin_broadcastInDim _ _ _ (allFin_edgeNorm _ _))))

end Aggregation

end Cert.Bn.Finite

end
-- ==== Proof.KernelValue.lean ====
/-
  The idealized kernel program's result in the reference's form. The fold through @main leaves the result array
  at `normalize` of the aggregated features with mean = S/N and var = Q/N − mean²; when x, W and b are arrays of
  real numbers the aggregated features are real, and the variance law rewrites that as the reference's closed
  formula (`refFormula`) of the same aggregated features.
-/
import proofs.«144540_j49074296324300_1_alg».proof.Proof.Chain
import proofs.«144540_j49074296324300_1_alg».proof.Proof.Bridge
import proofs.«144540_j49074296324300_1_alg».proof.Proof.Finite
import proofs.«144540_j49074296324300_1_alg».proof.Proof.LibRowOps

set_option maxRecDepth 16384

noncomputable section

namespace Cert.Bn.KernelValue

open Cert.KernelIdeal Cert.KernelIdeal.Gen
open Idealize.ShloMosaic Idealize.ShloMosaic.TcCoe Idealize.ShloMosaic.ValueIdx Idealize.SL.Sem
open LibERealMatrix LibIdealFinite

variable (m : (ℓ : Loc nD τ sig) → Buf (Elt Ideal) ℓ) (ρ : Dev nD → PrngReg) (c : Dev nD)

/-- A vector laid out as a row, read at (0, q). -/
theorem row_apply (v : FVec Ideal S64 .f32) (q : Fin 64) :
    Cert.Bn.Chain.row v (ix2 (n0 := 1) (n1 := 64) 0 q) = v (ix1 (n := 64) q) :=
  LibRowOps.shapeCast_row_apply v _ 0 q

/-- The aggregated features are real when x and W are. -/
theorem allFin_agg (hx : AllFin (s := S100000x64) (m ((c : Thread nD τ).loc main_arg0)))
    (hw : AllFin (s := S64x64) (m ((c : Thread nD τ).loc main_arg2))) : AllFin (Cert.Bn.Chain.agg m c) :=
  Cert.Bn.Finite.allFin_aggregate _ (Cert.Bn.Finite.allFin_linear hx (allFin_transpose _ _ _ hw))

/-- The result array is the reference's closed formula of the aggregated features. -/
theorem result_formula (hx : AllFin (s := S100000x64) (m ((c : Thread nD τ).loc main_arg0)))
    (hw : AllFin (s := S64x64) (m ((c : Thread nD τ).loc main_arg2)))
    (hb : AllFin (s := S64) (m ((c : Thread nD τ).loc main_arg3))) :
    W8 (F := Ideal) m ρ c (Proc.devRef .tc main_v55)
      = Cert.Bn.refFormula (Cert.Bn.Chain.agg m c) (m ((c : Thread nD τ).loc main_arg3))
          (m ((c : Thread nD τ).loc main_arg4)) (m ((c : Thread nD τ).loc main_arg5)) := by
  rw [Cert.Bn.Chain.result_eq]
  exact Cert.Bn.Bridge.normalize_eq_refFormula _ _ _ _ _ _ _ _ _ (allFin_agg m c hx hw) hb
    (row_apply _) (row_apply _) (row_apply _) (fun _ => rfl) (fun _ => rfl)

end Cert.Bn.KernelValue

end
-- ==== Proof.AggRef.lean ====
/-
  The neighbourhood aggregation both programs apply to the transformed features h (100000 nodes × 64 channels),
  as one function of h and the 2 × 1600000 edge table, written as the host operations themselves:

    src, dst   the edge endpoints, each followed by 0 … 99999 (a self-loop per node): 1700000 entries
    deg[n]     the number of edges whose destination is n (a scatter-add of ones)
    dis[n]     deg[n]^(-1/2) where deg[n] > 0, and 0 elsewhere
    wrap       a negative index has 100000 added (Python-style indexing), before each gather
    w[e]       dis[src e] · dis[dst e]
    out[n,:]   the sum over the edges e with destination n of h[src e,:] · w[e] (a scatter-add onto zeros)

  Nothing here is evaluated: the two programs apply the same operations, and the certificate only needs
  (i) that it is the same function on both sides and (ii) that it keeps every entry a real number.
-/
import proofs.«144540_j49074296324300_1_alg».proof.ReferenceIdeal
import Idealize.ShloMosaic.PureOps.Ideal

noncomputable section

namespace Cert.BnRef

open Idealize.ShloMosaic Cert.ReferenceIdeal

-- the program's stated side conditions (shape facts of its broadcasts, slices, gathers and scatters)
variable [Facts₀]
open Facts₀

/-- An i32 vector over the 1700000 edges (with self-loops). -/
abbrev EdgeIdx := IVec S1700000 32
/-- A float per node. -/
abbrev NodeVec := FVec Ideal S100000 .f32
/-- The feature matrix: a float per node and channel. -/
abbrev Feat := FVec Ideal S100000x64 .f32
/-- The edge table: row 0 the sources, row 1 the destinations. -/
abbrev EdgeTable := IVec S2x1600000 32

/-- Row `r` of the edge table (r = 0, 1 written as the slice's start) followed by the node numbers 0 … 99999. -/
def srcIdx (ei : EdgeTable) : EdgeIdx :=
  concatenate S1700000 0
    [⟨S1600000, fun i => shapeCast S1600000 (extractStridedSlice S1x1600000 ![0, 0] ei slices_S2x1600000_S1x1600000_0_0) shapeCasts_S1x1600000_S1600000 i⟩,
     ⟨S100000, iotaInDim S100000 32 0⟩] concatenates_S1600000_S100000_S1700000_d0

def dstIdx (ei : EdgeTable) : EdgeIdx :=
  concatenate S1700000 0
    [⟨S1600000, fun i => shapeCast S1600000 (extractStridedSlice S1x1600000 ![1, 0] ei slices_S2x1600000_S1x1600000_1_0) shapeCasts_S1x1600000_S1600000 i⟩,
     ⟨S100000, iotaInDim S100000 32 0⟩] concatenates_S1600000_S100000_S1700000_d0

/-- The in-degree of every node: ones scattered onto zeros at the destinations. -/
def degree (dst : EdgeIdx) : NodeVec :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- deg^(-1/2) where the degree is positive, zero elsewhere. -/
def invSqrtDeg (dst : EdgeIdx) : NodeVec :=
  select (cmpf (F := Ideal) .ogt (degree dst) (broadcastInDim S100000 ![] bcast_S_S100000 (constant (F := Ideal) S_ .f32 0x00000000#32)))
    (Host.rsqrt (F := Ideal) (degree dst))
    (broadcastInDim S100000 ![] bcast_S_S100000 (id (constant (F := Ideal) S_ .f32 0x00000000#32)))

/-- A negative index has 100000 added. -/
def wrapIdx (idx : EdgeIdx) : EdgeIdx :=
  select (cmpi .slt idx (broadcastInDim S1700000 ![] bcast_S_S1700000 (constantI S_ 32 0#32)))
    (addi idx (broadcastInDim S1700000 ![] bcast_S_S1700000 (constantI S_ 32 100000#32))) idx

/-- The weight of every edge: the product of the two endpoints' inverse square-root degrees. -/
def edgeNorm (src dst : EdgeIdx) : FVec Ideal S1700000 .f32 :=
  mulf (F := Ideal)
    (Host.gather gather_S100000_S1700000x1_S1700000_n_0_n_n_0_1_1 (invSqrtDeg dst)
      (broadcastInDim S1700000x1 ![0] bcast_S1700000_S1700000x1_0 (wrapIdx src)))
    (Host.gather gather_S100000_S1700000x1_S1700000_n_0_n_n_0_1_1 (invSqrtDeg dst)
      (broadcastInDim S1700000x1 ![0] bcast_S1700000_S1700000x1_0 (wrapIdx dst)))

/-- The weighted neighbourhood sum of the rows of `h`. -/
def aggregateAt (h : Feat) (src dst : EdgeIdx) : Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal)
      (Host.gather gather_S100000x64_S1700000x1_S1700000x64_1_0_n_n_0_1_164 h
        (broadcastInDim S1700000x1 ![0] bcast_S1700000_S1700000x1_0 (wrapIdx src)))
      (broadcastInDim S1700000x64 ![0, 1] bcast_S1700000x1_S1700000x64_0_1
        (broadcastInDim S1700000x1 ![0] bcast_S1700000_S1700000x1_0 (edgeNorm src dst))))

/-- The aggregation as a function of the features and the edge table. -/
def aggregate (h : Feat) (ei : EdgeTable) : Feat := aggregateAt h (srcIdx ei) (dstIdx ei)

end Cert.BnRef

end
-- ==== Proof.AggTwin.lean ====
/-
  The neighbourhood aggregation is spelt twice, once over each program's own shape and dimension records
  (`Cert.Bn.aggregate` over the kernel program's, `Cert.BnRef.aggregate` over the reference's). The records hold the
  same numbers and differ only in the proofs of their side conditions, so the two are one function.
-/
import proofs.«144540_j49074296324300_1_alg».proof.Proof.Agg
import proofs.«144540_j49074296324300_1_alg».proof.Proof.AggRef

noncomputable section

namespace Cert.Bn

open Idealize.ShloMosaic

variable [Cert.KernelIdeal.Facts₀] [Cert.ReferenceIdeal.Facts₀]

theorem agg_twin (h : FVec Ideal Cert.KernelIdeal.S100000x64 .f32) (ei : IVec Cert.KernelIdeal.S2x1600000 32) :
    Cert.BnRef.aggregate h ei = Cert.Bn.aggregate h ei := rfl

end Cert.Bn

end
-- ==== Proof.RefOps.lean ====
/-
  The reference program's @main as one straight line of host operations: its own statements in order, each call
  replaced by the callee's operations over that call's buffers (the mean-squared-deviation function with its
  inner select, the two selects, the clamp at zero). 108 operations.
-/
import proofs.«144540_j49074296324300_1_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F]
variable [Cert.ReferenceIdeal.Facts]
open Cert.ReferenceIdeal.Facts₀ Cert.ReferenceIdeal.Facts

/-- @main's 108 operations, in order; a called function's operations stand in its call's place. -/
abbrev ops : List (HloOp τ sig (Elt F)) :=
  ( StableHlo.unary main_arg2 main_v0 ((transpose S64x64 [1, 0] · transposes_S64x64_S64x64_1_0) : (⟨S64x64, .f32⟩ : BufTy).Contents (Elt F) → (⟨S64x64, .f32⟩ : BufTy).Contents (Elt F))
  :: StableHlo.binary main_arg0 main_v0 main_v1 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.nullary main_v2 (iotaInDim S100000 32 0)
  :: StableHlo.unary main_arg1 main_v3 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v3 main_v4 rfl shapeCasts_S1x1600000_S1600000
  :: StableHlo.binary main_v4 main_v2 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.unary main_arg1 main_v6 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v6 main_v7 rfl shapeCasts_S1x1600000_S1600000
  :: StableHlo.binary main_v7 main_v2 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.nullary main_cst (constant S_ .f32 0x3F800000#32)
  :: StableHlo.unary main_cst main_v9 (broadcastInDim S1700000 ![] bcast_S_S1700000 : (⟨S_, .f32⟩ : BufTy).Contents (Elt F) → (⟨S1700000, .f32⟩ : BufTy).Contents (Elt F))
  :: StableHlo.nullary main_cst_0 (constant S_ .f32 0x00000000#32)
  :: StableHlo.unary main_cst_0 main_v10 (broadcastInDim S100000 ![] bcast_S_S100000 : (⟨S_, .f32⟩ : BufTy).Contents (Elt F) → (⟨S100000, .f32⟩ : BufTy).Contents (Elt F))
  :: StableHlo.unary main_v8 main_v11 (broadcastInDim S1700000x1 ![0] bcast_S1700000_S1700000x1_0 : (⟨S1700000, .i32⟩ : BufTy).Contents (Elt F) → (⟨S1700000x1, .i32⟩ : BufTy).Contents (Elt F))
  :: StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))
  :: StableHlo.nullary main_cst_1 (constant S_ .f32 0x00000000#32)
  :: StableHlo.unary main_cst_1 main_v13 (broadcastInDim S100000 ![] bcast_S_S100000 : (⟨S_, .f32⟩ : BufTy).Contents (Elt F) → (⟨S100000, .f32⟩ : BufTy).Contents (Elt F))
  :: StableHlo.binary main_v12 main_v13 main_v14 (cmpf .ogt : (⟨S100000, .f32⟩ : BufTy).Contents (Elt F) → (⟨S100000, .f32⟩ : BufTy).Contents (Elt F) → (⟨S100000, .i1⟩ : BufTy).Contents (Elt F))
  :: StableHlo.unary main_v12 main_v15 (Host.rsqrt : (⟨S100000, .f32⟩ : BufTy).Contents (Elt F) → (⟨S100000, .f32⟩ : BufTy).Contents (Elt F))
  :: StableHlo.nullary main_cst_2 (constant S_ .f32 0x00000000#32)
  :: StableHlo.TRef.unary (.of main_cst_2 : StableHlo.TRef sig ⟨S_, .f32⟩) main_call0.v0 id
  :: StableHlo.TRef.unary main_call0.v0 main_call0.v1 (broadcastInDim S100000 ![] bcast_S_S100000)
  :: StableHlo.TRef.ternary (.of main_v14 : StableHlo.TRef sig ⟨S100000, .i1⟩) (.of main_v15 : StableHlo.TRef sig ⟨S100000, .f32⟩) main_call0.v1 main_call0.v2 select
  :: StableHlo.nullary main_c (constantI S_ 32 0#32)
  :: StableHlo.unary main_c main_v17 (broadcastInDim S1700000 ![] bcast_S_S1700000 : (⟨S_, .i32⟩ : BufTy).Contents (Elt F) → (⟨S1700000, .i32⟩ : BufTy).Contents (Elt F))
  :: StableHlo.binary main_v5 main_v17 main_v18 (cmpi .slt : (⟨S1700000, .i32⟩ : BufTy).Contents (Elt F) → (⟨S1700000, .i32⟩ : BufTy).Contents (Elt F) → (⟨S1700000, .i1⟩ : BufTy).Contents (Elt F))
  :: StableHlo.nullary main_c_3 (constantI S_ 32 100000#32)
  :: StableHlo.unary main_c_3 main_v19 (broadcastInDim S1700000 ![] bcast_S_S1700000 : (⟨S_, .i32⟩ : BufTy).Contents (Elt F) → (⟨S1700000, .i32⟩ : BufTy).Contents (Elt F))
  :: StableHlo.binary main_v5 main_v19 main_v20 (addi : (⟨S1700000, .i32⟩ : BufTy).Contents (Elt F) → (⟨S1700000, .i32⟩ : BufTy).Contents (Elt F) → (⟨S1700000, .i32⟩ : BufTy).Contents (Elt F))
  :: StableHlo.ternary main_v18 main_v20 main_v5 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v21 main_v22 (broadcastInDim S1700000x1 ![0] bcast_S1700000_S1700000x1_0 : (⟨S1700000, .i32⟩ : BufTy).Contents (Elt F) → (⟨S1700000x1, .i32⟩ : BufTy).Contents (Elt F))
  :: StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.nullary main_c_4 (constantI S_ 32 0#32)
  :: StableHlo.unary main_c_4 main_v24 (broadcastInDim S1700000 ![] bcast_S_S1700000 : (⟨S_, .i32⟩ : BufTy).Contents (Elt F) → (⟨S1700000, .i32⟩ : BufTy).Contents (Elt F))
  :: StableHlo.binary main_v8 main_v24 main_v25 (cmpi .slt : (⟨S1700000, .i32⟩ : BufTy).Contents (Elt F) → (⟨S1700000, .i32⟩ : BufTy).Contents (Elt F) → (⟨S1700000, .i1⟩ : BufTy).Contents (Elt F))
  :: StableHlo.nullary main_c_5 (constantI S_ 32 100000#32)
  :: StableHlo.unary main_c_5 main_v26 (broadcastInDim S1700000 ![] bcast_S_S1700000 : (⟨S_, .i32⟩ : BufTy).Contents (Elt F) → (⟨S1700000, .i32⟩ : BufTy).Contents (Elt F))
  :: StableHlo.binary main_v8 main_v26 main_v27 (addi : (⟨S1700000, .i32⟩ : BufTy).Contents (Elt F) → (⟨S1700000, .i32⟩ : BufTy).Contents (Elt F) → (⟨S1700000, .i32⟩ : BufTy).Contents (Elt F))
  :: StableHlo.ternary main_v25 main_v27 main_v8 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v28 main_v29 (broadcastInDim S1700000x1 ![0] bcast_S1700000_S1700000x1_0 : (⟨S1700000, .i32⟩ : BufTy).Contents (Elt F) → (⟨S1700000x1, .i32⟩ : BufTy).Contents (Elt F))
  :: StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.binary main_v23 main_v30 main_v31 (mulf : (⟨S1700000, .f32⟩ : BufTy).Contents (Elt F) → (⟨S1700000, .f32⟩ : BufTy).Contents (Elt F) → (⟨S1700000, .f32⟩ : BufTy).Contents (Elt F))
  :: StableHlo.nullary main_c_6 (constantI S_ 32 0#32)
  :: StableHlo.unary main_c_6 main_v32 (broadcastInDim S1700000 ![] bcast_S_S1700000 : (⟨S_, .i32⟩ : BufTy).Contents (Elt F) → (⟨S1700000, .i32⟩ : BufTy).Contents (Elt F))
  :: StableHlo.binary main_v5 main_v32 main_v33 (cmpi .slt : (⟨S1700000, .i32⟩ : BufTy).Contents (Elt F) → (⟨S1700000, .i32⟩ : BufTy).Contents (Elt F) → (⟨S1700000, .i1⟩ : BufTy).Contents (Elt F))
  :: StableHlo.nullary main_c_7 (constantI S_ 32 100000#32)
  :: StableHlo.unary main_c_7 main_v34 (broadcastInDim S1700000 ![] bcast_S_S1700000 : (⟨S_, .i32⟩ : BufTy).Contents (Elt F) → (⟨S1700000, .i32⟩ : BufTy).Contents (Elt F))
  :: StableHlo.binary main_v5 main_v34 main_v35 (addi : (⟨S1700000, .i32⟩ : BufTy).Contents (Elt F) → (⟨S1700000, .i32⟩ : BufTy).Contents (Elt F) → (⟨S1700000, .i32⟩ : BufTy).Contents (Elt F))
  :: StableHlo.ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v36 main_v37 (broadcastInDim S1700000x1 ![0] bcast_S1700000_S1700000x1_0 : (⟨S1700000, .i32⟩ : BufTy).Contents (Elt F) → (⟨S1700000x1, .i32⟩ : BufTy).Contents (Elt F))
  :: StableHlo.binary main_v1 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))
  :: StableHlo.unary main_v31 main_v39 (broadcastInDim S1700000x1 ![0] bcast_S1700000_S1700000x1_0 : (⟨S1700000, .f32⟩ : BufTy).Contents (Elt F) → (⟨S1700000x1, .f32⟩ : BufTy).Contents (Elt F))
  :: StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F))
  :: StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F))
  :: StableHlo.nullary main_cst_8 (constant S_ .f32 0x00000000#32)
  :: StableHlo.unary main_cst_8 main_v42 (broadcastInDim S100000x64 ![] bcast_S_S100000x64 : (⟨S_, .f32⟩ : BufTy).Contents (Elt F) → (⟨S100000x64, .f32⟩ : BufTy).Contents (Elt F))
  :: StableHlo.unary main_v8 main_v43 (broadcastInDim S1700000x1 ![0] bcast_S1700000_S1700000x1_0 : (⟨S1700000, .i32⟩ : BufTy).Contents (Elt F) → (⟨S1700000x1, .i32⟩ : BufTy).Contents (Elt F))
  :: StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))
  :: StableHlo.unary main_arg3 main_v45 (broadcastInDim S1x64 ![1] bcast_S64_S1x64_1 : (⟨S64, .f32⟩ : BufTy).Contents (Elt F) → (⟨S1x64, .f32⟩ : BufTy).Contents (Elt F))
  :: StableHlo.unary main_v45 main_v46 (broadcastInDim S100000x64 ![0, 1] bcast_S1x64_S100000x64_0_1 : (⟨S1x64, .f32⟩ : BufTy).Contents (Elt F) → (⟨S100000x64, .f32⟩ : BufTy).Contents (Elt F))
  :: StableHlo.binary main_v44 main_v46 main_v47 (addf : (⟨S100000x64, .f32⟩ : BufTy).Contents (Elt F) → (⟨S100000x64, .f32⟩ : BufTy).Contents (Elt F) → (⟨S100000x64, .f32⟩ : BufTy).Contents (Elt F))
  :: StableHlo.nullary main_cst_9 (constant S_ .f32 0x00000000#32)
  :: StableHlo.binary main_v47 main_cst_9 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
  :: StableHlo.nullary main_cst_10 (constant S_ .f32 0x47C35000#32)
  :: StableHlo.unary main_cst_10 main_v49 (broadcastInDim S64 ![] bcast_S_S64 : (⟨S_, .f32⟩ : BufTy).Contents (Elt F) → (⟨S64, .f32⟩ : BufTy).Contents (Elt F))
  :: StableHlo.binary main_v48 main_v49 main_v50 (Host.divf : (⟨S64, .f32⟩ : BufTy).Contents (Elt F) → (⟨S64, .f32⟩ : BufTy).Contents (Elt F) → (⟨S64, .f32⟩ : BufTy).Contents (Elt F))
  :: StableHlo.nullary main_c_11 (constantI S_ 32 0#32)
  :: StableHlo.TRef.nullary main_call1.cst (constant S_ .f32 0x00000000#32)
  :: StableHlo.TRef.binary (.of main_v47 : StableHlo.TRef sig ⟨S100000x64, .f32⟩) main_call1.cst main_call1.v0 (fun x v => Host.reduceAdd x v reducesTo_S100000x64_S64_d0 h_S_)
  :: StableHlo.TRef.unary main_call1.v0 main_call1.v1 (broadcastInDim S1x64 ![1] bcast_S64_S1x64_1)
  :: StableHlo.TRef.nullary main_call1.cst_0 (constant S_ .f32 0x47C35000#32)
  :: StableHlo.TRef.unary main_call1.cst_0 main_call1.v2 (broadcastInDim S1x64 ![] bcast_S_S1x64)
  :: StableHlo.TRef.binary main_call1.v1 main_call1.v2 main_call1.v3 Host.divf
  :: StableHlo.TRef.unary main_call1.v3 main_call1.v4 (broadcastInDim S100000x64 ![0, 1] bcast_S1x64_S100000x64_0_1)
  :: StableHlo.TRef.binary (.of main_v47 : StableHlo.TRef sig ⟨S100000x64, .f32⟩) main_call1.v4 main_call1.v5 subf
  :: StableHlo.TRef.binary main_call1.v5 main_call1.v5 main_call1.v6 mulf
  :: StableHlo.TRef.unary (.of main_c_11 : StableHlo.TRef sig ⟨S_, .i32⟩) main_call1.v7 (sitofp .f32)
  :: StableHlo.TRef.nullary main_call1.cst_1 (constant S_ .f32 0x47C35000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S100000x64_S64_d0 h_S_)
  :: StableHlo.TRef.unary main_call1.v8 main_call1.v10 (broadcastInDim S64 ![] bcast_S_S64)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S64 ![] bcast_S_S64)
  :: StableHlo.TRef.ternary main_call1.v12 main_call1.v11 main_call1.call0.v1 main_call1.call0.v2 (fun p a b => select (broadcastInDim S64 ![] bcast_S_S64 p) a b)
  :: StableHlo.unary main_v50 main_v52 (broadcastInDim S1x64 ![1] bcast_S64_S1x64_1 : (⟨S64, .f32⟩ : BufTy).Contents (Elt F) → (⟨S1x64, .f32⟩ : BufTy).Contents (Elt F))
  :: StableHlo.unary main_v52 main_v53 (broadcastInDim S100000x64 ![0, 1] bcast_S1x64_S100000x64_0_1 : (⟨S1x64, .f32⟩ : BufTy).Contents (Elt F) → (⟨S100000x64, .f32⟩ : BufTy).Contents (Elt F))
  :: StableHlo.binary main_v47 main_v53 main_v54 (subf : (⟨S100000x64, .f32⟩ : BufTy).Contents (Elt F) → (⟨S100000x64, .f32⟩ : BufTy).Contents (Elt F) → (⟨S100000x64, .f32⟩ : BufTy).Contents (Elt F))
  :: StableHlo.nullary main_cst_12 (constant S_ .f32 0x3727C5AC#32)
  :: StableHlo.unary main_cst_12 main_v55 (broadcastInDim S64 ![] bcast_S_S64 : (⟨S_, .f32⟩ : BufTy).Contents (Elt F) → (⟨S64, .f32⟩ : BufTy).Contents (Elt F))
  :: StableHlo.binary main_v51 main_v55 main_v56 (addf : (⟨S64, .f32⟩ : BufTy).Contents (Elt F) → (⟨S64, .f32⟩ : BufTy).Contents (Elt F) → (⟨S64, .f32⟩ : BufTy).Contents (Elt F))
  :: StableHlo.unary main_v56 main_v57 (Host.rsqrt : (⟨S64, .f32⟩ : BufTy).Contents (Elt F) → (⟨S64, .f32⟩ : BufTy).Contents (Elt F))
  :: StableHlo.unary main_v57 main_v58 (broadcastInDim S1x64 ![1] bcast_S64_S1x64_1 : (⟨S64, .f32⟩ : BufTy).Contents (Elt F) → (⟨S1x64, .f32⟩ : BufTy).Contents (Elt F))
  :: StableHlo.unary main_v58 main_v59 (broadcastInDim S100000x64 ![0, 1] bcast_S1x64_S100000x64_0_1 : (⟨S1x64, .f32⟩ : BufTy).Contents (Elt F) → (⟨S100000x64, .f32⟩ : BufTy).Contents (Elt F))
  :: StableHlo.binary main_v54 main_v59 main_v60 (mulf : (⟨S100000x64, .f32⟩ : BufTy).Contents (Elt F) → (⟨S100000x64, .f32⟩ : BufTy).Contents (Elt F) → (⟨S100000x64, .f32⟩ : BufTy).Contents (Elt F))
  :: StableHlo.unary main_arg4 main_v61 (broadcastInDim S1x64 ![1] bcast_S64_S1x64_1 : (⟨S64, .f32⟩ : BufTy).Contents (Elt F) → (⟨S1x64, .f32⟩ : BufTy).Contents (Elt F))
  :: StableHlo.unary main_v61 main_v62 (broadcastInDim S100000x64 ![0, 1] bcast_S1x64_S100000x64_0_1 : (⟨S1x64, .f32⟩ : BufTy).Contents (Elt F) → (⟨S100000x64, .f32⟩ : BufTy).Contents (Elt F))
  :: StableHlo.binary main_v60 main_v62 main_v63 (mulf : (⟨S100000x64, .f32⟩ : BufTy).Contents (Elt F) → (⟨S100000x64, .f32⟩ : BufTy).Contents (Elt F) → (⟨S100000x64, .f32⟩ : BufTy).Contents (Elt F))
  :: StableHlo.unary main_arg5 main_v64 (broadcastInDim S1x64 ![1] bcast_S64_S1x64_1 : (⟨S64, .f32⟩ : BufTy).Contents (Elt F) → (⟨S1x64, .f32⟩ : BufTy).Contents (Elt F))
  :: StableHlo.unary main_v64 main_v65 (broadcastInDim S100000x64 ![0, 1] bcast_S1x64_S100000x64_0_1 : (⟨S1x64, .f32⟩ : BufTy).Contents (Elt F) → (⟨S100000x64, .f32⟩ : BufTy).Contents (Elt F))
  :: StableHlo.binary main_v63 main_v65 main_v66 (addf : (⟨S100000x64, .f32⟩ : BufTy).Contents (Elt F) → (⟨S100000x64, .f32⟩ : BufTy).Contents (Elt F) → (⟨S100000x64, .f32⟩ : BufTy).Contents (Elt F))
  :: StableHlo.TRef.nullary main_call2.cst (constant S_ .f32 0x00000000#32)
  :: StableHlo.TRef.unary main_call2.cst main_call2.v0 (broadcastInDim S100000x64 ![] bcast_S_S100000x64)
  :: StableHlo.TRef.binary (.of main_v66 : StableHlo.TRef sig ⟨S100000x64, .f32⟩) main_call2.v0 main_call2.v1 maximumf
  :: [] )

set_option maxRecDepth 8192 in
set_option maxHeartbeats 4000000 in
/-- @main is that straight line: the two windows and the functions' bodies unfold to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

end Cert.RefRun

end
-- ==== Proof.RefStages.lean ====
/-
  The reference program's result as a composition of its own host operations, cut into named stages:
    refH      the feature transform x · wᵀ
    (the neighbourhood aggregation of that, `Cert.BnRef.aggregate`)
    refOutB   the bias row added to every row
    refMean   the column means
    refCount, refDev, refVar   the column mean squared deviations (with the function's own count and guard)
    refY      normalise, scale, shift, clamp below at zero
    refOut    the whole
  Each stage is the operations themselves, in the program's order and spelling; nothing is evaluated here.
-/
import proofs.«144540_j49074296324300_1_alg».proof.ReferenceIdeal
import proofs.«144540_j49074296324300_1_alg».proof.Proof.AggRef

noncomputable section

namespace Cert.RefRun

open Cert.ReferenceIdeal Idealize.ShloMosaic

variable [Cert.ReferenceIdeal.Facts]
open Cert.ReferenceIdeal.Facts₀ Cert.ReferenceIdeal.Facts

/-- A float per node and channel. -/
abbrev Mat := FVec Ideal S100000x64 .f32
/-- A float per channel. -/
abbrev Chan := FVec Ideal S64 .f32

/-- The transformed features: x times the transpose of w. -/
def refH (x : Mat) (w : FVec Ideal S64x64 .f32) : Mat :=
  Host.dotGeneral (F := Ideal) dot_S100000x64_S64x64_S100000x64_1_0_0_1_n_n none x
    (transpose S64x64 [1, 0] w transposes_S64x64_S64x64_1_0)

/-- The bias vector, as a 1×64 row broadcast over the rows, added to the aggregated features. -/
def refOutB (a : Mat) (b : Chan) : Mat :=
  addf (F := Ideal) a (broadcastInDim S100000x64 ![0, 1] bcast_S1x64_S100000x64_0_1 (broadcastInDim S1x64 ![1] bcast_S64_S1x64_1 b))

/-- The column means: the column sums from zero, divided by the node count's word. -/
def refMean (o : Mat) : Chan :=
  Host.divf (F := Ideal) (Host.reduceAdd (F := Ideal) o (constant (F := Ideal) S_ .f32 0x00000000#32) reducesTo_S100000x64_S64_d0 h_S_)
    (broadcastInDim S64 ![] bcast_S_S64 (constant (F := Ideal) S_ .f32 0x47C35000#32))

/-- The variance function's count: the node count's word minus the converted integer zero (no correction). -/
def refCount : FVec Ideal S_ .f32 :=
  subf (F := Ideal) (constant (F := Ideal) S_ .f32 0x47C35000#32) (sitofp (F := Ideal) .f32 (constantI S_ 32 0#32))

/-- The deviations from the column means, the means recomputed inside the variance function as a 1×64 row. -/
def refDev (o : Mat) : Mat :=
  subf (F := Ideal) o
    (broadcastInDim S100000x64 ![0, 1] bcast_S1x64_S100000x64_0_1
      (Host.divf (F := Ideal) (broadcastInDim S1x64 ![1] bcast_S64_S1x64_1 (Host.reduceAdd (F := Ideal) o (constant (F := Ideal) S_ .f32 0x00000000#32) reducesTo_S100000x64_S64_d0 h_S_))
        (broadcastInDim S1x64 ![] bcast_S_S1x64 (constant (F := Ideal) S_ .f32 0x47C35000#32))))

/-- The column variances: the column sums of the squared deviations divided by the count, where the count is
    positive; the not-a-number word elsewhere. -/
def refVar (o : Mat) : Chan :=
  select (broadcastInDim S64 ![] bcast_S_S64 (cmpf (F := Ideal) .ogt refCount (constant (F := Ideal) S_ .f32 0x00000000#32)))
    (Host.divf (F := Ideal) (Host.reduceAdd (F := Ideal) (mulf (F := Ideal) (refDev o) (refDev o)) (constant (F := Ideal) S_ .f32 0x00000000#32) reducesTo_S100000x64_S64_d0 h_S_)
      (broadcastInDim S64 ![] bcast_S_S64 refCount))
    (broadcastInDim S64 ![] bcast_S_S64 (id (constant (F := Ideal) S_ .f32 0x7FC00000#32)))

/-- Subtract the mean, multiply by the inverse square root of variance plus ε, scale, shift, clamp at zero. -/
def refY (o : Mat) (mean var g be : Chan) : Mat :=
  maximumf (F := Ideal)
    (addf (F := Ideal)
      (mulf (F := Ideal)
        (mulf (F := Ideal)
          (subf (F := Ideal) o (broadcastInDim S100000x64 ![0, 1] bcast_S1x64_S100000x64_0_1 (broadcastInDim S1x64 ![1] bcast_S64_S1x64_1 mean)))
          (broadcastInDim S100000x64 ![0, 1] bcast_S1x64_S100000x64_0_1 (broadcastInDim S1x64 ![1] bcast_S64_S1x64_1
            (Host.rsqrt (F := Ideal) (addf (F := Ideal) var (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 g)))
      (broadcastInDim S100000x64 ![0, 1] bcast_S1x64_S100000x64_0_1 (broadcastInDim S1x64 ![1] bcast_S64_S1x64_1 be)))
    (broadcastInDim S100000x64 ![] bcast_S_S100000x64 (constant (F := Ideal) S_ .f32 0x00000000#32))

/-- The reference's result as a function of its six arguments. -/
def refOut (x : Mat) (ei : IVec S2x1600000 32) (w : FVec Ideal S64x64 .f32) (b g be : Chan) : Mat :=
  let o := refOutB (Cert.BnRef.aggregate (refH x w) ei) b
  refY o (refMean o) (refVar o) g be

end Cert.RefRun

end
-- ==== Proof.RefRun.lean ====
/-
  The reference program's run with its result named. From any memory, every weakly fair execution of @main ends
  with the result buffer holding `refOut` (the stages' composition) of the six arguments' launch contents, and the
  arguments unchanged. The fold of the operation list is read stretch by stretch: each stretch of the list leaves one
  stage's value in its buffer, as a function of the buffers it reads, and passes the other buffers through.
-/
import proofs.«144540_j49074296324300_1_alg».proof.Proof.RefOps
import proofs.«144540_j49074296324300_1_alg».proof.Proof.RefStages

set_option Elab.async false

noncomputable section

namespace Cert.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

/-- Operations 1 … 2 of the 108. -/
abbrev seg1 : List (HloOp τ sig (Elt F)) :=
  ( StableHlo.unary main_arg2 main_v0 ((transpose S64x64 [1, 0] · transposes_S64x64_S64x64_1_0) : (⟨S64x64, .f32⟩ : BufTy).Contents (Elt F) → (⟨S64x64, .f32⟩ : BufTy).Contents (Elt F))
  :: StableHlo.binary main_arg0 main_v0 main_v1 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: [] )

/-- Operations 3 … 20 of the 108. -/
abbrev seg2a : List (HloOp τ sig (Elt F)) :=
  ( StableHlo.nullary main_v2 (iotaInDim S100000 32 0)
  :: StableHlo.unary main_arg1 main_v3 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v3 main_v4 rfl shapeCasts_S1x1600000_S1600000
  :: StableHlo.binary main_v4 main_v2 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.unary main_arg1 main_v6 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v6 main_v7 rfl shapeCasts_S1x1600000_S1600000
  :: StableHlo.binary main_v7 main_v2 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.nullary main_cst (constant S_ .f32 0x3F800000#32)
  :: StableHlo.unary main_cst main_v9 (broadcastInDim S1700000 ![] bcast_S_S1700000 : (⟨S_, .f32⟩ : BufTy).Contents (Elt F) → (⟨S1700000, .f32⟩ : BufTy).Contents (Elt F))
  :: StableHlo.nullary main_cst_0 (constant S_ .f32 0x00000000#32)
  :: StableHlo.unary main_cst_0 main_v10 (broadcastInDim S100000 ![] bcast_S_S100000 : (⟨S_, .f32⟩ : BufTy).Contents (Elt F) → (⟨S100000, .f32⟩ : BufTy).Contents (Elt F))
  :: StableHlo.unary main_v8 main_v11 (broadcastInDim S1700000x1 ![0] bcast_S1700000_S1700000x1_0 : (⟨S1700000, .i32⟩ : BufTy).Contents (Elt F) → (⟨S1700000x1, .i32⟩ : BufTy).Contents (Elt F))
  :: StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))
  :: StableHlo.nullary main_cst_1 (constant S_ .f32 0x00000000#32)
  :: StableHlo.unary main_cst_1 main_v13 (broadcastInDim S100000 ![] bcast_S_S100000 : (⟨S_, .f32⟩ : BufTy).Contents (Elt F) → (⟨S100000, .f32⟩ : BufTy).Contents (Elt F))
  :: StableHlo.binary main_v12 main_v13 main_v14 (cmpf .ogt : (⟨S100000, .f32⟩ : BufTy).Contents (Elt F) → (⟨S100000, .f32⟩ : BufTy).Contents (Elt F) → (⟨S100000, .i1⟩ : BufTy).Contents (Elt F))
  :: StableHlo.unary main_v12 main_v15 (Host.rsqrt : (⟨S100000, .f32⟩ : BufTy).Contents (Elt F) → (⟨S100000, .f32⟩ : BufTy).Contents (Elt F))
  :: StableHlo.nullary main_cst_2 (constant S_ .f32 0x00000000#32)
  :: [] )

/-- Operations 21 … 23 of the 108. -/
abbrev seg2b : List (HloOp τ sig (Elt F)) :=
  ( StableHlo.TRef.unary (.of main_cst_2 : StableHlo.TRef sig ⟨S_, .f32⟩) main_call0.v0 id
  :: StableHlo.TRef.unary main_call0.v0 main_call0.v1 (broadcastInDim S100000 ![] bcast_S_S100000)
  :: StableHlo.TRef.ternary (.of main_v14 : StableHlo.TRef sig ⟨S100000, .i1⟩) (.of main_v15 : StableHlo.TRef sig ⟨S100000, .f32⟩) main_call0.v1 main_call0.v2 select
  :: [] )

/-- Operations 24 … 58 of the 108. -/
abbrev seg2c : List (HloOp τ sig (Elt F)) :=
  ( StableHlo.nullary main_c (constantI S_ 32 0#32)
  :: StableHlo.unary main_c main_v17 (broadcastInDim S1700000 ![] bcast_S_S1700000 : (⟨S_, .i32⟩ : BufTy).Contents (Elt F) → (⟨S1700000, .i32⟩ : BufTy).Contents (Elt F))
  :: StableHlo.binary main_v5 main_v17 main_v18 (cmpi .slt : (⟨S1700000, .i32⟩ : BufTy).Contents (Elt F) → (⟨S1700000, .i32⟩ : BufTy).Contents (Elt F) → (⟨S1700000, .i1⟩ : BufTy).Contents (Elt F))
  :: StableHlo.nullary main_c_3 (constantI S_ 32 100000#32)
  :: StableHlo.unary main_c_3 main_v19 (broadcastInDim S1700000 ![] bcast_S_S1700000 : (⟨S_, .i32⟩ : BufTy).Contents (Elt F) → (⟨S1700000, .i32⟩ : BufTy).Contents (Elt F))
  :: StableHlo.binary main_v5 main_v19 main_v20 (addi : (⟨S1700000, .i32⟩ : BufTy).Contents (Elt F) → (⟨S1700000, .i32⟩ : BufTy).Contents (Elt F) → (⟨S1700000, .i32⟩ : BufTy).Contents (Elt F))
  :: StableHlo.ternary main_v18 main_v20 main_v5 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v21 main_v22 (broadcastInDim S1700000x1 ![0] bcast_S1700000_S1700000x1_0 : (⟨S1700000, .i32⟩ : BufTy).Contents (Elt F) → (⟨S1700000x1, .i32⟩ : BufTy).Contents (Elt F))
  :: StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.nullary main_c_4 (constantI S_ 32 0#32)
  :: StableHlo.unary main_c_4 main_v24 (broadcastInDim S1700000 ![] bcast_S_S1700000 : (⟨S_, .i32⟩ : BufTy).Contents (Elt F) → (⟨S1700000, .i32⟩ : BufTy).Contents (Elt F))
  :: StableHlo.binary main_v8 main_v24 main_v25 (cmpi .slt : (⟨S1700000, .i32⟩ : BufTy).Contents (Elt F) → (⟨S1700000, .i32⟩ : BufTy).Contents (Elt F) → (⟨S1700000, .i1⟩ : BufTy).Contents (Elt F))
  :: StableHlo.nullary main_c_5 (constantI S_ 32 100000#32)
  :: StableHlo.unary main_c_5 main_v26 (broadcastInDim S1700000 ![] bcast_S_S1700000 : (⟨S_, .i32⟩ : BufTy).Contents (Elt F) → (⟨S1700000, .i32⟩ : BufTy).Contents (Elt F))
  :: StableHlo.binary main_v8 main_v26 main_v27 (addi : (⟨S1700000, .i32⟩ : BufTy).Contents (Elt F) → (⟨S1700000, .i32⟩ : BufTy).Contents (Elt F) → (⟨S1700000, .i32⟩ : BufTy).Contents (Elt F))
  :: StableHlo.ternary main_v25 main_v27 main_v8 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v28 main_v29 (broadcastInDim S1700000x1 ![0] bcast_S1700000_S1700000x1_0 : (⟨S1700000, .i32⟩ : BufTy).Contents (Elt F) → (⟨S1700000x1, .i32⟩ : BufTy).Contents (Elt F))
  :: StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.binary main_v23 main_v30 main_v31 (mulf : (⟨S1700000, .f32⟩ : BufTy).Contents (Elt F) → (⟨S1700000, .f32⟩ : BufTy).Contents (Elt F) → (⟨S1700000, .f32⟩ : BufTy).Contents (Elt F))
  :: StableHlo.nullary main_c_6 (constantI S_ 32 0#32)
  :: StableHlo.unary main_c_6 main_v32 (broadcastInDim S1700000 ![] bcast_S_S1700000 : (⟨S_, .i32⟩ : BufTy).Contents (Elt F) → (⟨S1700000, .i32⟩ : BufTy).Contents (Elt F))
  :: StableHlo.binary main_v5 main_v32 main_v33 (cmpi .slt : (⟨S1700000, .i32⟩ : BufTy).Contents (Elt F) → (⟨S1700000, .i32⟩ : BufTy).Contents (Elt F) → (⟨S1700000, .i1⟩ : BufTy).Contents (Elt F))
  :: StableHlo.nullary main_c_7 (constantI S_ 32 100000#32)
  :: StableHlo.unary main_c_7 main_v34 (broadcastInDim S1700000 ![] bcast_S_S1700000 : (⟨S_, .i32⟩ : BufTy).Contents (Elt F) → (⟨S1700000, .i32⟩ : BufTy).Contents (Elt F))
  :: StableHlo.binary main_v5 main_v34 main_v35 (addi : (⟨S1700000, .i32⟩ : BufTy).Contents (Elt F) → (⟨S1700000, .i32⟩ : BufTy).Contents (Elt F) → (⟨S1700000, .i32⟩ : BufTy).Contents (Elt F))
  :: StableHlo.ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v36 main_v37 (broadcastInDim S1700000x1 ![0] bcast_S1700000_S1700000x1_0 : (⟨S1700000, .i32⟩ : BufTy).Contents (Elt F) → (⟨S1700000x1, .i32⟩ : BufTy).Contents (Elt F))
  :: StableHlo.binary main_v1 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))
  :: StableHlo.unary main_v31 main_v39 (broadcastInDim S1700000x1 ![0] bcast_S1700000_S1700000x1_0 : (⟨S1700000, .f32⟩ : BufTy).Contents (Elt F) → (⟨S1700000x1, .f32⟩ : BufTy).Contents (Elt F))
  :: StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F))
  :: StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F))
  :: StableHlo.nullary main_cst_8 (constant S_ .f32 0x00000000#32)
  :: StableHlo.unary main_cst_8 main_v42 (broadcastInDim S100000x64 ![] bcast_S_S100000x64 : (⟨S_, .f32⟩ : BufTy).Contents (Elt F) → (⟨S100000x64, .f32⟩ : BufTy).Contents (Elt F))
  :: StableHlo.unary main_v8 main_v43 (broadcastInDim S1700000x1 ![0] bcast_S1700000_S1700000x1_0 : (⟨S1700000, .i32⟩ : BufTy).Contents (Elt F) → (⟨S1700000x1, .i32⟩ : BufTy).Contents (Elt F))
  :: StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))
  :: [] )

/-- Operations 59 … 61 of the 108. -/
abbrev seg3 : List (HloOp τ sig (Elt F)) :=
  ( StableHlo.unary main_arg3 main_v45 (broadcastInDim S1x64 ![1] bcast_S64_S1x64_1 : (⟨S64, .f32⟩ : BufTy).Contents (Elt F) → (⟨S1x64, .f32⟩ : BufTy).Contents (Elt F))
  :: StableHlo.unary main_v45 main_v46 (broadcastInDim S100000x64 ![0, 1] bcast_S1x64_S100000x64_0_1 : (⟨S1x64, .f32⟩ : BufTy).Contents (Elt F) → (⟨S100000x64, .f32⟩ : BufTy).Contents (Elt F))
  :: StableHlo.binary main_v44 main_v46 main_v47 (addf : (⟨S100000x64, .f32⟩ : BufTy).Contents (Elt F) → (⟨S100000x64, .f32⟩ : BufTy).Contents (Elt F) → (⟨S100000x64, .f32⟩ : BufTy).Contents (Elt F))
  :: [] )

/-- Operations 62 … 66 of the 108. -/
abbrev seg4 : List (HloOp τ sig (Elt F)) :=
  ( StableHlo.nullary main_cst_9 (constant S_ .f32 0x00000000#32)
  :: StableHlo.binary main_v47 main_cst_9 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
  :: StableHlo.nullary main_cst_10 (constant S_ .f32 0x47C35000#32)
  :: StableHlo.unary main_cst_10 main_v49 (broadcastInDim S64 ![] bcast_S_S64 : (⟨S_, .f32⟩ : BufTy).Contents (Elt F) → (⟨S64, .f32⟩ : BufTy).Contents (Elt F))
  :: StableHlo.binary main_v48 main_v49 main_v50 (Host.divf : (⟨S64, .f32⟩ : BufTy).Contents (Elt F) → (⟨S64, .f32⟩ : BufTy).Contents (Elt F) → (⟨S64, .f32⟩ : BufTy).Contents (Elt F))
  :: [] )

/-- Operations 67 … 89 of the 108. -/
abbrev seg5 : List (HloOp τ sig (Elt F)) :=
  ( StableHlo.nullary main_c_11 (constantI S_ 32 0#32)
  :: StableHlo.TRef.nullary main_call1.cst (constant S_ .f32 0x00000000#32)
  :: StableHlo.TRef.binary (.of main_v47 : StableHlo.TRef sig ⟨S100000x64, .f32⟩) main_call1.cst main_call1.v0 (fun x v => Host.reduceAdd x v reducesTo_S100000x64_S64_d0 h_S_)
  :: StableHlo.TRef.unary main_call1.v0 main_call1.v1 (broadcastInDim S1x64 ![1] bcast_S64_S1x64_1)
  :: StableHlo.TRef.nullary main_call1.cst_0 (constant S_ .f32 0x47C35000#32)
  :: StableHlo.TRef.unary main_call1.cst_0 main_call1.v2 (broadcastInDim S1x64 ![] bcast_S_S1x64)
  :: StableHlo.TRef.binary main_call1.v1 main_call1.v2 main_call1.v3 Host.divf
  :: StableHlo.TRef.unary main_call1.v3 main_call1.v4 (broadcastInDim S100000x64 ![0, 1] bcast_S1x64_S100000x64_0_1)
  :: StableHlo.TRef.binary (.of main_v47 : StableHlo.TRef sig ⟨S100000x64, .f32⟩) main_call1.v4 main_call1.v5 subf
  :: StableHlo.TRef.binary main_call1.v5 main_call1.v5 main_call1.v6 mulf
  :: StableHlo.TRef.unary (.of main_c_11 : StableHlo.TRef sig ⟨S_, .i32⟩) main_call1.v7 (sitofp .f32)
  :: StableHlo.TRef.nullary main_call1.cst_1 (constant S_ .f32 0x47C35000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S100000x64_S64_d0 h_S_)
  :: StableHlo.TRef.unary main_call1.v8 main_call1.v10 (broadcastInDim S64 ![] bcast_S_S64)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S64 ![] bcast_S_S64)
  :: StableHlo.TRef.ternary main_call1.v12 main_call1.v11 main_call1.call0.v1 main_call1.call0.v2 (fun p a b => select (broadcastInDim S64 ![] bcast_S_S64 p) a b)
  :: [] )

/-- Operations 90 … 108 of the 108. -/
abbrev seg6 : List (HloOp τ sig (Elt F)) :=
  ( StableHlo.unary main_v50 main_v52 (broadcastInDim S1x64 ![1] bcast_S64_S1x64_1 : (⟨S64, .f32⟩ : BufTy).Contents (Elt F) → (⟨S1x64, .f32⟩ : BufTy).Contents (Elt F))
  :: StableHlo.unary main_v52 main_v53 (broadcastInDim S100000x64 ![0, 1] bcast_S1x64_S100000x64_0_1 : (⟨S1x64, .f32⟩ : BufTy).Contents (Elt F) → (⟨S100000x64, .f32⟩ : BufTy).Contents (Elt F))
  :: StableHlo.binary main_v47 main_v53 main_v54 (subf : (⟨S100000x64, .f32⟩ : BufTy).Contents (Elt F) → (⟨S100000x64, .f32⟩ : BufTy).Contents (Elt F) → (⟨S100000x64, .f32⟩ : BufTy).Contents (Elt F))
  :: StableHlo.nullary main_cst_12 (constant S_ .f32 0x3727C5AC#32)
  :: StableHlo.unary main_cst_12 main_v55 (broadcastInDim S64 ![] bcast_S_S64 : (⟨S_, .f32⟩ : BufTy).Contents (Elt F) → (⟨S64, .f32⟩ : BufTy).Contents (Elt F))
  :: StableHlo.binary main_v51 main_v55 main_v56 (addf : (⟨S64, .f32⟩ : BufTy).Contents (Elt F) → (⟨S64, .f32⟩ : BufTy).Contents (Elt F) → (⟨S64, .f32⟩ : BufTy).Contents (Elt F))
  :: StableHlo.unary main_v56 main_v57 (Host.rsqrt : (⟨S64, .f32⟩ : BufTy).Contents (Elt F) → (⟨S64, .f32⟩ : BufTy).Contents (Elt F))
  :: StableHlo.unary main_v57 main_v58 (broadcastInDim S1x64 ![1] bcast_S64_S1x64_1 : (⟨S64, .f32⟩ : BufTy).Contents (Elt F) → (⟨S1x64, .f32⟩ : BufTy).Contents (Elt F))
  :: StableHlo.unary main_v58 main_v59 (broadcastInDim S100000x64 ![0, 1] bcast_S1x64_S100000x64_0_1 : (⟨S1x64, .f32⟩ : BufTy).Contents (Elt F) → (⟨S100000x64, .f32⟩ : BufTy).Contents (Elt F))
  :: StableHlo.binary main_v54 main_v59 main_v60 (mulf : (⟨S100000x64, .f32⟩ : BufTy).Contents (Elt F) → (⟨S100000x64, .f32⟩ : BufTy).Contents (Elt F) → (⟨S100000x64, .f32⟩ : BufTy).Contents (Elt F))
  :: StableHlo.unary main_arg4 main_v61 (broadcastInDim S1x64 ![1] bcast_S64_S1x64_1 : (⟨S64, .f32⟩ : BufTy).Contents (Elt F) → (⟨S1x64, .f32⟩ : BufTy).Contents (Elt F))
  :: StableHlo.unary main_v61 main_v62 (broadcastInDim S100000x64 ![0, 1] bcast_S1x64_S100000x64_0_1 : (⟨S1x64, .f32⟩ : BufTy).Contents (Elt F) → (⟨S100000x64, .f32⟩ : BufTy).Contents (Elt F))
  :: StableHlo.binary main_v60 main_v62 main_v63 (mulf : (⟨S100000x64, .f32⟩ : BufTy).Contents (Elt F) → (⟨S100000x64, .f32⟩ : BufTy).Contents (Elt F) → (⟨S100000x64, .f32⟩ : BufTy).Contents (Elt F))
  :: StableHlo.unary main_arg5 main_v64 (broadcastInDim S1x64 ![1] bcast_S64_S1x64_1 : (⟨S64, .f32⟩ : BufTy).Contents (Elt F) → (⟨S1x64, .f32⟩ : BufTy).Contents (Elt F))
  :: StableHlo.unary main_v64 main_v65 (broadcastInDim S100000x64 ![0, 1] bcast_S1x64_S100000x64_0_1 : (⟨S1x64, .f32⟩ : BufTy).Contents (Elt F) → (⟨S100000x64, .f32⟩ : BufTy).Contents (Elt F))
  :: StableHlo.binary main_v63 main_v65 main_v66 (addf : (⟨S100000x64, .f32⟩ : BufTy).Contents (Elt F) → (⟨S100000x64, .f32⟩ : BufTy).Contents (Elt F) → (⟨S100000x64, .f32⟩ : BufTy).Contents (Elt F))
  :: StableHlo.TRef.nullary main_call2.cst (constant S_ .f32 0x00000000#32)
  :: StableHlo.TRef.unary main_call2.cst main_call2.v0 (broadcastInDim S100000x64 ![] bcast_S_S100000x64)
  :: StableHlo.TRef.binary (.of main_v66 : StableHlo.TRef sig ⟨S100000x64, .f32⟩) main_call2.v0 main_call2.v1 maximumf
  :: [] )

set_option maxRecDepth 16384 in
set_option maxHeartbeats 4000000 in
/-- The operation list is the eight stretches in a row. -/
theorem ops_split : (ops (F := F)) = seg1 ++ (seg2a ++ (seg2b ++ (seg2c ++ (seg3 ++ (seg4 ++ (seg5 ++ seg6)))))) := rfl

/-- The fold over two stretches in a row is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The weighted neighbourhood sum with the inverse square-root degrees `dis` given. -/
def aggregateOf (h : Cert.BnRef.Feat) (dis : Cert.BnRef.NodeVec) (src dst : Cert.BnRef.EdgeIdx) : Cert.BnRef.Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal)
      (Host.gather gather_S100000x64_S1700000x1_S1700000x64_1_0_n_n_0_1_164 h
        (broadcastInDim S1700000x1 ![0] bcast_S1700000_S1700000x1_0 (Cert.BnRef.wrapIdx src)))
      (broadcastInDim S1700000x64 ![0, 1] bcast_S1700000x1_S1700000x64_0_1
        (broadcastInDim S1700000x1 ![0] bcast_S1700000_S1700000x1_0
          (mulf (F := Ideal)
            (Host.gather gather_S100000_S1700000x1_S1700000_n_0_n_n_0_1_1 dis
              (broadcastInDim S1700000x1 ![0] bcast_S1700000_S1700000x1_0 (Cert.BnRef.wrapIdx src)))
            (Host.gather gather_S100000_S1700000x1_S1700000_n_0_n_n_0_1_1 dis
              (broadcastInDim S1700000x1 ![0] bcast_S1700000_S1700000x1_0 (Cert.BnRef.wrapIdx dst)))))))

/-- The aggregation is that sum at the guarded reciprocal square roots of the in-degrees. -/
theorem aggregate_eq (h : Cert.BnRef.Feat) (ei : Cert.BnRef.EdgeTable) :
    Cert.BnRef.aggregate h ei
      = aggregateOf h (Cert.BnRef.invSqrtDeg (Cert.BnRef.dstIdx ei)) (Cert.BnRef.srcIdx ei) (Cert.BnRef.dstIdx ei) := rfl

attribute [local irreducible] Host.reduceAdd Host.gather Host.scatterAdd Ideal.matmul in
set_option maxRecDepth 16384 in
set_option maxHeartbeats 8000000 in
/-- The first two operations leave the transformed features in their buffer. -/
theorem s1_v1 (V : Valuation τ sig (Elt Ideal)) :
    after (seg1 (F := Ideal)) V (Proc.devRef .tc main_v1) = refH (V (Proc.devRef .tc main_arg0)) (V (Proc.devRef .tc main_arg2)) := by
  after_results_simp
  rfl

theorem s1_keep_arg1 (V : Valuation τ sig (Elt Ideal)) :
    after (seg1 (F := Ideal)) V (Proc.devRef .tc main_arg1) = V (Proc.devRef .tc main_arg1) := by
  after_results_simp

theorem s1_keep_arg3 (V : Valuation τ sig (Elt Ideal)) :
    after (seg1 (F := Ideal)) V (Proc.devRef .tc main_arg3) = V (Proc.devRef .tc main_arg3) := by
  after_results_simp

theorem s1_keep_arg4 (V : Valuation τ sig (Elt Ideal)) :
    after (seg1 (F := Ideal)) V (Proc.devRef .tc main_arg4) = V (Proc.devRef .tc main_arg4) := by
  after_results_simp

theorem s1_keep_arg5 (V : Valuation τ sig (Elt Ideal)) :
    after (seg1 (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The sources followed by the node numbers. -/
theorem s2a_v5 (V : Valuation τ sig (Elt Ideal)) :
    after (seg2a (F := Ideal)) V (Proc.devRef .tc main_v5) = Cert.BnRef.srcIdx (V (Proc.devRef .tc main_arg1)) := by
  after_results_simp
  rfl

attribute [local irreducible] Host.reduceAdd Host.gather Host.scatterAdd Ideal.matmul in
set_option maxRecDepth 16384 in
set_option maxHeartbeats 8000000 in
/-- The destinations followed by the node numbers. -/
theorem s2a_v8 (V : Valuation τ sig (Elt Ideal)) :
    after (seg2a (F := Ideal)) V (Proc.devRef .tc main_v8) = Cert.BnRef.dstIdx (V (Proc.devRef .tc main_arg1)) := by
  after_results_simp
  rfl

attribute [local irreducible] Host.reduceAdd Host.gather Host.scatterAdd Ideal.matmul in
set_option maxRecDepth 16384 in
set_option maxHeartbeats 8000000 in
/-- Where the in-degree is positive. -/
theorem s2a_v14 (V : Valuation τ sig (Elt Ideal)) :
    after (seg2a (F := Ideal)) V (Proc.devRef .tc main_v14) = cmpf (F := Ideal) .ogt (Cert.BnRef.degree (Cert.BnRef.dstIdx (V (Proc.devRef .tc main_arg1))))
        (broadcastInDim S100000 ![] bcast_S_S100000 (constant (F := Ideal) S_ .f32 0x00000000#32)) := by
  after_results_simp
  rfl

attribute [local irreducible] Host.reduceAdd Host.gather Host.scatterAdd Ideal.matmul in
set_option maxRecDepth 16384 in
set_option maxHeartbeats 8000000 in
/-- The reciprocal square root of the in-degree. -/
theorem s2a_v15 (V : Valuation τ sig (Elt Ideal)) :
    after (seg2a (F := Ideal)) V (Proc.devRef .tc main_v15) = Host.rsqrt (F := Ideal) (Cert.BnRef.degree (Cert.BnRef.dstIdx (V (Proc.devRef .tc main_arg1)))) := by
  after_results_simp
  rfl

attribute [local irreducible] Host.reduceAdd Host.gather Host.scatterAdd Ideal.matmul in
set_option maxRecDepth 16384 in
set_option maxHeartbeats 8000000 in
/-- The zero of the guarded reciprocal square root. -/
theorem s2a_cst_2 (V : Valuation τ sig (Elt Ideal)) :
    after (seg2a (F := Ideal)) V (Proc.devRef .tc main_cst_2) = constant (F := Ideal) S_ .f32 0x00000000#32 := by
  after_results_simp

theorem s2a_keep_v1 (V : Valuation τ sig (Elt Ideal)) :
    after (seg2a (F := Ideal)) V (Proc.devRef .tc main_v1) = V (Proc.devRef .tc main_v1) := by
  after_results_simp

theorem s2a_keep_arg1 (V : Valuation τ sig (Elt Ideal)) :
    after (seg2a (F := Ideal)) V (Proc.devRef .tc main_arg1) = V (Proc.devRef .tc main_arg1) := by
  after_results_simp

theorem s2a_keep_arg3 (V : Valuation τ sig (Elt Ideal)) :
    after (seg2a (F := Ideal)) V (Proc.devRef .tc main_arg3) = V (Proc.devRef .tc main_arg3) := by
  after_results_simp

theorem s2a_keep_arg4 (V : Valuation τ sig (Elt Ideal)) :
    after (seg2a (F := Ideal)) V (Proc.devRef .tc main_arg4) = V (Proc.devRef .tc main_arg4) := by
  after_results_simp

theorem s2a_keep_arg5 (V : Valuation τ sig (Elt Ideal)) :
    after (seg2a (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The outlined select. -/
theorem s2b_v16 (V : Valuation τ sig (Elt Ideal)) :
    after (seg2b (F := Ideal)) V (Proc.devRef .tc main_v16) = select (V (Proc.devRef .tc main_v14)) (V (Proc.devRef .tc main_v15))
        (broadcastInDim S100000 ![] bcast_S_S100000 (id (V (Proc.devRef .tc main_cst_2)))) := by
  after_results_simp
  rfl

theorem s2b_keep_v1 (V : Valuation τ sig (Elt Ideal)) :
    after (seg2b (F := Ideal)) V (Proc.devRef .tc main_v1) = V (Proc.devRef .tc main_v1) := by
  after_results_simp

theorem s2b_keep_v5 (V : Valuation τ sig (Elt Ideal)) :
    after (seg2b (F := Ideal)) V (Proc.devRef .tc main_v5) = V (Proc.devRef .tc main_v5) := by
  after_results_simp

theorem s2b_keep_v8 (V : Valuation τ sig (Elt Ideal)) :
    after (seg2b (F := Ideal)) V (Proc.devRef .tc main_v8) = V (Proc.devRef .tc main_v8) := by
  after_results_simp

theorem s2b_keep_arg3 (V : Valuation τ sig (Elt Ideal)) :
    after (seg2b (F := Ideal)) V (Proc.devRef .tc main_arg3) = V (Proc.devRef .tc main_arg3) := by
  after_results_simp

theorem s2b_keep_arg4 (V : Valuation τ sig (Elt Ideal)) :
    after (seg2b (F := Ideal)) V (Proc.devRef .tc main_arg4) = V (Proc.devRef .tc main_arg4) := by
  after_results_simp

theorem s2b_keep_arg5 (V : Valuation τ sig (Elt Ideal)) :
    after (seg2b (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The gathers, the edge weights and the scatter-add. -/
theorem s2c_v44 (V : Valuation τ sig (Elt Ideal)) :
    after (seg2c (F := Ideal)) V (Proc.devRef .tc main_v44) = aggregateOf (V (Proc.devRef .tc main_v1)) (V (Proc.devRef .tc main_v16)) (V (Proc.devRef .tc main_v5)) (V (Proc.devRef .tc main_v8)) := by
  after_results_simp
  rfl

theorem s2c_keep_arg3 (V : Valuation τ sig (Elt Ideal)) :
    after (seg2c (F := Ideal)) V (Proc.devRef .tc main_arg3) = V (Proc.devRef .tc main_arg3) := by
  after_results_simp

theorem s2c_keep_arg4 (V : Valuation τ sig (Elt Ideal)) :
    after (seg2c (F := Ideal)) V (Proc.devRef .tc main_arg4) = V (Proc.devRef .tc main_arg4) := by
  after_results_simp

theorem s2c_keep_arg5 (V : Valuation τ sig (Elt Ideal)) :
    after (seg2c (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The bias row added. -/
theorem s3_v47 (V : Valuation τ sig (Elt Ideal)) :
    after (seg3 (F := Ideal)) V (Proc.devRef .tc main_v47) = refOutB (V (Proc.devRef .tc main_v44)) (V (Proc.devRef .tc main_arg3)) := by
  after_results_simp
  rfl

theorem s3_keep_arg4 (V : Valuation τ sig (Elt Ideal)) :
    after (seg3 (F := Ideal)) V (Proc.devRef .tc main_arg4) = V (Proc.devRef .tc main_arg4) := by
  after_results_simp

theorem s3_keep_arg5 (V : Valuation τ sig (Elt Ideal)) :
    after (seg3 (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The column means. -/
theorem s4_v50 (V : Valuation τ sig (Elt Ideal)) :
    after (seg4 (F := Ideal)) V (Proc.devRef .tc main_v50) = refMean (V (Proc.devRef .tc main_v47)) := by
  after_results_simp
  rfl

theorem s4_keep_v47 (V : Valuation τ sig (Elt Ideal)) :
    after (seg4 (F := Ideal)) V (Proc.devRef .tc main_v47) = V (Proc.devRef .tc main_v47) := by
  after_results_simp

theorem s4_keep_arg4 (V : Valuation τ sig (Elt Ideal)) :
    after (seg4 (F := Ideal)) V (Proc.devRef .tc main_arg4) = V (Proc.devRef .tc main_arg4) := by
  after_results_simp

theorem s4_keep_arg5 (V : Valuation τ sig (Elt Ideal)) :
    after (seg4 (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The variance function with its inner select. -/
theorem s5_v51 (V : Valuation τ sig (Elt Ideal)) :
    after (seg5 (F := Ideal)) V (Proc.devRef .tc main_v51) = refVar (V (Proc.devRef .tc main_v47)) := by
  after_results_simp
  rfl

theorem s5_keep_v47 (V : Valuation τ sig (Elt Ideal)) :
    after (seg5 (F := Ideal)) V (Proc.devRef .tc main_v47) = V (Proc.devRef .tc main_v47) := by
  after_results_simp

theorem s5_keep_v50 (V : Valuation τ sig (Elt Ideal)) :
    after (seg5 (F := Ideal)) V (Proc.devRef .tc main_v50) = V (Proc.devRef .tc main_v50) := by
  after_results_simp

theorem s5_keep_arg4 (V : Valuation τ sig (Elt Ideal)) :
    after (seg5 (F := Ideal)) V (Proc.devRef .tc main_arg4) = V (Proc.devRef .tc main_arg4) := by
  after_results_simp

theorem s5_keep_arg5 (V : Valuation τ sig (Elt Ideal)) :
    after (seg5 (F := Ideal)) V (Proc.devRef .tc main_arg5) = V (Proc.devRef .tc main_arg5) := by
  after_results_simp

attribute [local irreducible] Host.reduceAdd Host.gather Host.scatterAdd Ideal.matmul in
set_option maxRecDepth 16384 in
set_option maxHeartbeats 8000000 in
/-- The normalisation, scale, shift and clamp. -/
theorem s6_v67 (V : Valuation τ sig (Elt Ideal)) :
    after (seg6 (F := Ideal)) V (Proc.devRef .tc main_v67) = refY (V (Proc.devRef .tc main_v47)) (V (Proc.devRef .tc main_v50)) (V (Proc.devRef .tc main_v51)) (V (Proc.devRef .tc main_arg4)) (V (Proc.devRef .tc main_arg5)) := by
  after_results_simp
  rfl

attribute [local irreducible] Host.reduceAdd Host.gather Host.scatterAdd Ideal.matmul in
/-- The three stretches of the aggregation in a row: from the transformed features and the edge table. -/
theorem s2_v44 (V : Valuation τ sig (Elt Ideal)) :
    after (seg2c (F := Ideal)) (after (seg2b (F := Ideal)) (after (seg2a (F := Ideal)) V)) (Proc.devRef .tc main_v44)
      = Cert.BnRef.aggregate (V (Proc.devRef .tc main_v1)) (V (Proc.devRef .tc main_arg1)) := by
  rw [s2c_v44, s2b_v16, s2b_keep_v1, s2b_keep_v5, s2b_keep_v8, s2a_v14, s2a_v15, s2a_cst_2, s2a_keep_v1, s2a_v5, s2a_v8]
  rfl

/-- The fold of the operations at the result buffer is `refOut` of the arguments' contents: stretch by stretch,
    each stretch's result read off and every buffer it does not write passed through. -/
theorem out_eq (V : Valuation τ sig (Elt Ideal)) :
    after (ops (F := Ideal)) V (Proc.devRef .tc main_v67)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, after_append, after_append, after_append]
  rw [s6_v67]
  rw [s5_v51, s5_keep_v47, s5_keep_v50, s5_keep_arg4, s5_keep_arg5]
  rw [s4_v50, s4_keep_v47, s4_keep_arg4, s4_keep_arg5]
  rw [s3_v47, s3_keep_arg4, s3_keep_arg5]
  rw [s2_v44, s2c_keep_arg3, s2c_keep_arg4, s2c_keep_arg5, s2b_keep_arg3, s2b_keep_arg4, s2b_keep_arg5, s2a_keep_arg3, s2a_keep_arg4, s2a_keep_arg5]
  rw [s1_v1, s1_keep_arg1, s1_keep_arg3, s1_keep_arg4, s1_keep_arg5]
  rfl

set_option maxRecDepth 16384 in
set_option maxHeartbeats 43200000 in
/-- No operation writes an argument's buffer. -/
theorem args_eq (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5) := by
  refine ⟨?_, ?_, ?_, ?_, ?_, ?_⟩ <;> after_results_simp

/-- On every device, from any memory with zero counters: every weakly fair execution of @main terminates with the
    result at `refOut` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v67).trans (out_eq _),
       (h c main_arg0).trans (args_eq _).1,
       (h c main_arg1).trans (args_eq _).2.1,
       (h c main_arg2).trans (args_eq _).2.2.1,
       (h c main_arg3).trans (args_eq _).2.2.2.1,
       (h c main_arg4).trans (args_eq _).2.2.2.2.1,
       (h c main_arg5).trans (args_eq _).2.2.2.2.2⟩)
    (run_seq scopedRefs_eq scopedSems_eq defs main (fun _ => ops) main_eq (fun _ => ops_sub) m ρ)

end Cert.RefRun

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.RefRead.lean ====
/-
  The reference's result, stage by stage, read at an entry (p, q) — node p, channel q — and assembled into the
  closed formula `Cert.Bn.refFormula`:
    the product x · Wᵀ as the sum over the contracted axis;
    a vector of length 64 used as a row over all rows reads v[q];
    a column sum from zero is Σ_n o[n,q];
    the mean is that sum over N; inside the variance function the mean is computed again the same way, the count
    is N − 0 = N (the correction is the integer zero), the guard "count > 0" holds, and the square is a product;
    the last stage subtracts, scales by the reciprocal square root, multiplies, adds and clamps entry by entry.
-/
import proofs.«144540_j49074296324300_1_alg».proof.Proof.RefStages
import proofs.«144540_j49074296324300_1_alg».proof.Proof.Spec
import proofs.«144540_j49074296324300_1_alg».proof.Proof.SpecRef
import proofs.«144540_j49074296324300_1_alg».proof.Proof.Bridge
import proofs.«144540_j49074296324300_1_alg».proof.Proof.LibMatIdx
import proofs.«144540_j49074296324300_1_alg».proof.Proof.LibBatchLayouts
import proofs.«144540_j49074296324300_1_alg».proof.Proof.LibBatchMoments
import proofs.«144540_j49074296324300_1_alg».proof.Proof.LibIdealFinite

set_option maxRecDepth 16384

noncomputable section

namespace Cert.RefRead

open Cert.ReferenceIdeal Cert.RefRun Idealize.ShloMosaic Idealize.ShloMosaic.ValueIdx

variable [Cert.ReferenceIdeal.Facts]
open Cert.ReferenceIdeal.Facts₀ Cert.ReferenceIdeal.Facts

/-! ### Layout -/

/-- A vector of length 64 as a row repeated over the 100000 rows, at (p, q): the vector at q. -/
theorem rowBcast_apply (v : Chan) (p : Fin 100000) (q : Fin 64) :
    broadcastInDim S100000x64 ![0, 1] bcast_S1x64_S100000x64_0_1 (broadcastInDim S1x64 ![1] bcast_S64_S1x64_1 v)
      (ix2 (n0 := 100000) (n1 := 64) p q) = v (ix1 (n := 64) q) :=
  (LibBatchLayouts.bcast_1a_na_apply _ _ p q).trans (LibBatchLayouts.bcast_a_1a_apply _ v 0 q)

/-- Summing out the node axis leaves the channel axis. -/
theorem hred : S100000x64.Reduces [0] S64 := by decide

theorem lift_eq (n : Fin 100000) (q : Fin 64) :
    hred.lift (ix1 (n := 64) q) n = ix2 (n0 := 100000) (n1 := 64) n q := by
  funext a
  match a with
  | ⟨0, _⟩ => rfl
  | ⟨1, _⟩ => rfl

/-- A column sum from the zero word. -/
theorem colSum_apply (o : Mat) (q : Fin 64) :
    Host.reduceAdd (F := Ideal) o (constant (F := Ideal) S_ .f32 0x00000000#32) reducesTo_S100000x64_S64_d0 h_S_ (ix1 (n := 64) q)
      = ∑ n : Fin 100000, o (ix2 (n0 := 100000) (n1 := 64) n q) := by
  rw [LibBatchMoments.reduceAdd_single_apply o _ reducesTo_S100000x64_S64_d0 hred h_S_ (ix1 (n := 64) q)]
  rw [show constant (F := Ideal) S_ .f32 0x00000000#32 (Shape.Idx.first h_S_) = 0 from Ideal.ofBits_zero_f32, zero_add]
  show (∑ n : Fin 100000, o (hred.lift (ix1 (n := 64) q) n)) = _
  exact Finset.sum_congr rfl fun n _ => congrArg o (lift_eq n q)

/-! ### The product -/

theorem refH_eq (x : Mat) (w : FVec Ideal S64x64 .f32) :
    refH x w = Cert.Bn.linear x (transpose S64x64 [1, 0] w transposes_S64x64_S64x64_1_0) := by
  funext j
  exact LibMatIdx.dot2_apply (M := 100000) (K := 64) (N := 64) dot_S100000x64_S64x64_S100000x64_1_0_0_1_n_n rfl rfl
    (fun j k => rfl) (fun j k => DotDims.lhsIdx_val_of_single _ rfl j k)
    (fun j k => DotDims.rhsIdx_val_of_single _ rfl j k) (fun j k => rfl) none _ _ j

/-! ### The bias -/

theorem refOutB_eq (a : Mat) (b : Chan) : refOutB a b = Cert.Bn.biased a b := by
  funext i
  obtain ⟨p, q, rfl⟩ : ∃ (p : Fin 100000) (q : Fin 64), i = ix2 p q := ⟨i 0, i 1, eq_ix2 i⟩
  unfold refOutB
  rw [addf_apply, rowBcast_apply]
  rfl

/-! ### Mean and variance -/

theorem refMean_apply (o : Mat) (q : Fin 64) : refMean o (ix1 (n := 64) q) = Cert.Bn.colMean o q := by
  unfold refMean
  rw [LibIdealFinite.hostDivf_apply, colSum_apply]
  rfl

/-- The deviation from the column mean, the mean recomputed as a row. -/
theorem refDev_apply (o : Mat) (n : Fin 100000) (q : Fin 64) :
    refDev o (ix2 (n0 := 100000) (n1 := 64) n q) = o (ix2 (n0 := 100000) (n1 := 64) n q) - Cert.Bn.colMean o q := by
  unfold refDev
  rw [subf_apply, LibBatchLayouts.bcast_1a_na_apply, LibIdealFinite.hostDivf_apply, LibBatchLayouts.bcast_a_1a_apply,
    colSum_apply]
  rfl

/-- The count N − 0 is N. -/
theorem refCount_apply (i : S_.Idx) : refCount i = ((100000 : ℝ) : EReal) :=
  LibIdealFinite.subf_constant_sitofp_zero_apply S_ Cert.Bn.Bridge.nodesWord_eq i

theorem refVar_apply (o : Mat) (q : Fin 64) : refVar o (ix1 (n := 64) q) = Cert.Bn.colVar o q := by
  unfold refVar
  have hguard : ∀ i, broadcastInDim S64 ![] bcast_S_S64
      (cmpf (F := Ideal) .ogt refCount (constant (F := Ideal) S_ .f32 0x00000000#32)) i = 1 := fun i =>
    LibIdealFinite.broadcastInDim_eq_const _ _ _
      (fun j => LibIdealFinite.cmpf_ogt_eq_one _ _ j (by
        rw [refCount_apply, show constant (F := Ideal) S_ .f32 0x00000000#32 j = 0 from Ideal.ofBits_zero_f32]
        exact_mod_cast (by norm_num : (0 : ℝ) < 100000))) i
  rw [LibIdealFinite.select_of_true _ _ _ hguard]
  rw [LibIdealFinite.hostDivf_apply, colSum_apply,
    LibIdealFinite.broadcastInDim_eq_const _ _ _ (fun j => refCount_apply j) (ix1 (n := 64) q)]
  unfold Cert.Bn.colVar
  rw [Cert.Bn.Bridge.nodesWord_eq]
  refine congrArg (fun s => Ideal.div s ((100000 : ℝ) : EReal)) (Finset.sum_congr rfl fun n _ => ?_)
  rw [mulf_apply, refDev_apply]

/-! ### The last stage -/

theorem refY_apply (o : Mat) (mean var g be : Chan) (p : Fin 100000) (q : Fin 64) :
    refY o mean var g be (ix2 (n0 := 100000) (n1 := 64) p q)
      = max (((o (ix2 (n0 := 100000) (n1 := 64) p q) - mean (ix1 (n := 64) q))
            * Ideal.rsqrt (var (ix1 (n := 64) q) + Ideal.ofBits .f32 0x3727C5AC#32))
          * g (ix1 (n := 64) q) + be (ix1 (n := 64) q)) (Ideal.ofBits .f32 0x00000000#32) := by
  unfold refY
  rw [maximumf_apply, addf_apply, mulf_apply, mulf_apply, subf_apply, rowBcast_apply, rowBcast_apply, rowBcast_apply,
    rowBcast_apply, LibIdealFinite.hostRsqrt_apply, addf_apply]
  rfl

/-! ### The whole -/

/-- The reference's result is the closed formula of the aggregated features. -/
theorem refOut_eq (x : Mat) (ei : IVec S2x1600000 32) (w : FVec Ideal S64x64 .f32) (b g be : Chan) :
    refOut x ei w b g be
      = Cert.Bn.refFormula (Cert.BnRef.aggregate (Cert.Bn.linear x (transpose S64x64 [1, 0] w transposes_S64x64_S64x64_1_0)) ei)
          b g be := by
  funext i
  obtain ⟨p, q, rfl⟩ : ∃ (p : Fin 100000) (q : Fin 64), i = ix2 p q := ⟨i 0, i 1, eq_ix2 i⟩
  unfold refOut
  dsimp only
  rw [refY_apply, refMean_apply, refVar_apply, refOutB_eq, refH_eq]
  rfl

end Cert.RefRead

end
-- ==== Proof.lean ====
/-
  A graph-convolution layer followed by batch normalisation and a clamp at zero, over 100000 nodes, 1600000 edges
  and 64 channels: the kernel program against the reference, at exact arithmetic.

  Both programs compute h = x · Wᵀ and aggregate it over the graph by the same host operations (self-loops, the
  in-degree, its reciprocal square root guarded at zero, gather, weight, scatter-add); call the result r, and
  o = r + b. The kernel program computes the column sums S = Σ_n o and Q = Σ_n o² in a pallas_call that
  accumulates over ten row blocks, takes mean = S/N and var = Q/N − mean² on the host, and normalises in a third
  pallas_call; the reference takes mean = (Σ_n o)/N and var = (Σ_n (o − mean)²)/N. The two variances agree because
  every o[n,c] is a real number: the inputs x, W, b are finite by the precondition, a product of real matrices is
  real, and the aggregation only gathers, multiplies by real weights and sums finitely many entries, whatever the
  integer edge table holds. After the variance both sides apply the same expression to equal values.

  The three frames: the two kernel programs' are the generated ones; the reference's is its run with the result
  dropped. The idealization ledger is empty.
-/
import proofs.«144540_j49074296324300_1_alg».proof.Defs
import proofs.«144540_j49074296324300_1_alg».proof.Proof.Gen.Kernel
import proofs.«144540_j49074296324300_1_alg».proof.Proof.Gen.Kernel.Frame
import proofs.«144540_j49074296324300_1_alg».proof.Proof.Gen.KernelIdeal
import proofs.«144540_j49074296324300_1_alg».proof.Proof.Gen.KernelIdeal.Frame
import proofs.«144540_j49074296324300_1_alg».proof.Proof.Gen.ReferenceIdeal
import proofs.«144540_j49074296324300_1_alg».proof.Proof.Gen.Pre_finite_inputs
import proofs.«144540_j49074296324300_1_alg».proof.Proof.KernelRun
import proofs.«144540_j49074296324300_1_alg».proof.Proof.KernelValue
import proofs.«144540_j49074296324300_1_alg».proof.Proof.Finite
import proofs.«144540_j49074296324300_1_alg».proof.Proof.AggTwin
import proofs.«144540_j49074296324300_1_alg».proof.Proof.RefRun
import proofs.«144540_j49074296324300_1_alg».proof.Proof.RefRead
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's equation dropped. -/
theorem frame_referenceIdeal : Cert.frame_ReferenceIdeal := fun m ρ _ =>
  (θ_run Cert.ReferenceIdeal.defs _ _).mono (fun _ h c => (h c).2) (Cert.RefRun.run m ρ)

/-- The ideal pass rewrote nothing. -/
theorem preserves : Cert.preserves_Kernel_KernelIdeal := trivial

/-- Both programs end with the result array at the reference's closed formula of the aggregated features. -/
theorem algebraic : Cert.algebraic_KernelIdeal_ReferenceIdeal := by
  intro m ρ m' ρ' hpre hagree
  refine ⟨fun c => Cert.Bn.refFormula (Cert.Bn.Chain.agg m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.Bn.KernelRun.run (F := Ideal) m ρ)
    obtain ⟨hx, hw, hb⟩ := Cert.Bn.Finite.reals_of_pre _ _ _ _ _ _ (hpre c)
    exact Cert.Bn.KernelValue.result_formula m ρ c hx hw hb
  · refine (θ_run Cert.ReferenceIdeal.defs _ _).mono (fun r h c => ⟨(h c).1.trans ?_, (h c).2⟩)
      (Cert.RefRun.run m' ρ')
    rw [(hagree c).1, (hagree c).2.1, (hagree c).2.2.1, (hagree c).2.2.2.1, (hagree c).2.2.2.2.1, (hagree c).2.2.2.2.2]
    exact (Cert.RefRead.refOut_eq _ _ _ _ _ _).trans (by rw [Cert.Bn.agg_twin]; rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
